-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x1024x16 : Shape := ⟨3, ![4096, 1024, 16]⟩
abbrev S1024x1024 : Shape := ⟨2, ![1024, 1024]⟩
abbrev S1024 : Shape := ⟨1, ![1024]⟩
abbrev S32768x1024 : Shape := ⟨2, ![32768, 1024]⟩
abbrev S1024x16 : Shape := ⟨2, ![1024, 16]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x1024x16 : S_.BroadcastsInDim S4096x1024x16 (![] : Fin 0 → Fin S4096x1024x16.rank)
  reducesTo_S4096x1024x16_S_d0_1_2 : S4096x1024x16.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S32768x1024 : S_.BroadcastsInDim S32768x1024 (![] : Fin 0 → Fin S32768x1024.rank)
  reducesTo_S32768x1024_S_d0_1 : S32768x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part2 {F : FTy → Type} [FloatOps F] (main_arg7 : FVec F S1024 .f32) (main_arg8 : FVec F S1024x1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024 .f32) (main_arg5 : FVec F S32768x1024 .f32) (main_arg6 : FVec F S1024x16 .f32) (main_arg7 : FVec F S1024 .f32) (main_arg8 : FVec F S1024x1024 .f32) (main_arg9 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S32768x1024 .f32 := Host.absf main_arg5
  let main_cst_8 : FVec F S_ .f32 := constant S_ .f32 0x7F800000#32
  let main_v25 : FVec F S32768x1024 .f32 := broadcastInDim S32768x1024 ![] bcast_S_S32768x1024 main_cst_8
  let main_v26 : IVec S32768x1024 1 := cmpf .olt main_v24 main_v25
  let main_c_9 : IVec S_ 1 := constantI S_ 1 1#1
  let main_v27 : IVec S_ 1 := (fun x v => Host.reduce IntOp.andi x v reducesTo_S32768x1024_S_d0_1 h_S_) main_v26 main_c_9
  let main_v28 : IVec S_ 1 := andi main_v23 main_v27
  let main_v29 : FVec F S1024x16 .f32 := Host.absf main_arg6
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x1024 .f32) (main_arg1 : FVec F S4096x1024x16 .f32) (main_arg2 : FVec F S1024x1024 .f32) (main_arg3 : FVec F S1024x1024 .f32) (main_arg4 : FVec F S1024 .f32) (main_arg5 : FVec F S32768x1024 .f32) (main_arg6 : FVec F S1024x16 .f32) (main_arg7 : FVec F S1024 .f32) (main_arg8 : FVec F S1024x1024 .f32) (main_arg9 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024x16 .f32 := Host.absf main_arg1
  let main_cst_0 : FVec F S_ .f32 := constant S_ .f32 0x7F800000#32
  let main_v5 : FVec F S4096x1024x16 .f32 := broadcastInDim S4096x1024x16 ![] bcast_S_S4096x1024x16 main_cst_0
  let main_v6 : IVec S4096x1024x16 1 := cmpf .olt main_v4 main_v5
  let main_c_1 : IVec S_ 1 := constantI S_ 1 1#1
  let main_v7 : IVec S_ 1 := (fun x v => Host.reduce IntOp.andi x v reducesTo_S4096x1024x16_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_v13 main_v16
-- ==== Kernel.lean ====
abbrev S4096x1024 : Shape := ⟨2, ![4096, 1024]⟩
abbrev S4096x1024x16 : Shape := ⟨3, ![4096, 1024, 16]⟩
abbrev S1024x1024 : Shape := ⟨2, ![1024, 1024]⟩
abbrev S1024 : Shape := ⟨1, ![1024]⟩
abbrev S32768x1024 : Shape := ⟨2, ![32768, 1024]⟩
abbrev S1024x16 : Shape := ⟨2, ![1024, 16]⟩
abbrev S1024x2x16x1024 : Shape := ⟨4, ![1024, 2, 16, 1024]⟩
abbrev S1024x1x16x1024 : Shape := ⟨4, ![1024, 1, 16, 1024]⟩
abbrev S1024x16x1024 : Shape := ⟨3, ![1024, 16, 1024]⟩
abbrev S16384x1024 : Shape := ⟨2, ![16384, 1024]⟩
abbrev S1x1024 : Shape := ⟨2, ![1, 1024]⟩
abbrev S32x1024 : Shape := ⟨2, ![32, 1024]⟩
abbrev S32x128x16 : Shape := ⟨3, ![32, 128, 16]⟩
abbrev S128x1024 : Shape := ⟨2, ![128, 1024]⟩
abbrev S1x128 : Shape := ⟨2, ![1, 128]⟩
abbrev S2048x1024 : Shape := ⟨2, ![2048, 1024]⟩
abbrev S128x16 : Shape := ⟨2, ![128, 16]⟩
abbrev S32x128 : Shape := ⟨2, ![32, 128]⟩
abbrev S1024x128 : Shape := ⟨2, ![1024, 128]⟩
abbrev S1024x2048 : Shape := ⟨2, ![1024, 2048]⟩
abbrev S32x2048 : Shape := ⟨2, ![32, 2048]⟩
abbrev S32x128x1 : Shape := ⟨3, ![32, 128, 1]⟩
abbrev S1x128x16 : Shape := ⟨3, ![1, 128, 16]⟩
abbrev S512x1024 : Shape := ⟨2, ![512, 1024]⟩

abbrev nBuf : Space → Nat
  | .hbm => 29
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x1024x16, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S32768x1024, .f32⟩
  | .hbm, ⟨6, _⟩ => ⟨S1024x16, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S4096x1024, .bf16⟩
  | .hbm, ⟨11, _⟩ => ⟨S1024x1024, .bf16⟩
  | .hbm, ⟨12, _⟩ => ⟨S1024x1024, .bf16⟩
  | .hbm, ⟨13, _⟩ => ⟨S1024x2x16x1024, .f32⟩
  | .hbm, ⟨14, _⟩ => ⟨S1024x1x16x1024, .f32⟩
  | .hbm, ⟨15, _⟩ => ⟨S1024x16x1024, .f32⟩
  | .hbm, ⟨16, _⟩ => ⟨S16384x1024, .f32⟩
  | .hbm, ⟨17, _⟩ => ⟨S1024x1x16x1024, .f32⟩
  | .hbm, ⟨18, _⟩ => ⟨S1024x16x1024, .f32⟩
  | .hbm, ⟨19, _⟩ => ⟨S16384x1024, .f32⟩
  | .hbm, ⟨20, _⟩ => ⟨S16384x1024, .bf16⟩
  | .hbm, ⟨21, _⟩ => ⟨S16384x1024, .bf16⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S4096x1024x16, .f32⟩
  | .hbm, ⟨26, _⟩ => ⟨S1024x1024, .bf16⟩
  | .hbm, ⟨27, _⟩ => ⟨S1x1024, .f32⟩
  | .hbm, ⟨28, _⟩ => ⟨S4096x1024, .f32⟩
  | .local _ .vmem, ⟨0, _⟩ => ⟨S32x1024, .bf16⟩
  | .local _ .vmem, ⟨1, _⟩ => ⟨S32x1024, .bf16⟩
  | .local _ .vmem, ⟨2, _⟩ => ⟨S32x128x16, .f32⟩
  | .local _ .vmem, ⟨3, _⟩ => ⟨S32x128x16, .f32⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S1x128, .f32⟩
  | .local _ .vmem, ⟨9, _⟩ => ⟨S1x128, .f32⟩
  | .local _ .vmem, ⟨10, _⟩ => ⟨S2048x1024, .bf16⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S128x16, .f32⟩
  | .local _ .vmem, ⟨15, _⟩ => ⟨S128x16, .f32⟩
  | .local _ .vmem, ⟨16, _⟩ => ⟨S1x128, .f32⟩
  | .local _ .vmem, ⟨17, _⟩ => ⟨S1x128, .f32⟩
  | .local _ .vmem, ⟨18, _⟩ => ⟨S32x128, .f32⟩
  | .local _ .vmem, ⟨19, _⟩ => ⟨S32x128, .f32⟩
  | .local _ .vmem, ⟨20, _⟩ => ⟨S32x128x16, .f32⟩
  | .local _ .vmem, ⟨21, _⟩ => ⟨S32x128x16, .f32⟩
  | .local _ .vmem, ⟨22, _⟩ => ⟨S512x1024, .f32⟩
  | .local _ .vmem, ⟨23, _⟩ => ⟨S512x1024, .f32⟩
  | .local _ .vmem, ⟨24, _⟩ => ⟨S1024x1024, .bf16⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem2_0 : DmaSem sig := 25
abbrev cc1_sem3_0 : DmaSem sig := 26
abbrev cc1_sem3_1 : DmaSem sig := 27

abbrev nD : Nat := 1
abbrev τ : Topo := Topo.v7x

variable {F : FTy → Type} [FloatOps F]

abbrev grid0 : Pipeline.Grid := ⟨2, ![8, 128], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S32x128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x128x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  shapeCasts_S32768x1024_S1024x2x16x1024 : S32768x1024.ShapeCasts S1024x2x16x1024
  slices_S1024x2x16x1024_S1024x1x16x1024_0_0_0_0 : S1024x2x16x1024.Slices ![0, 0, 0, 0] S1024x1x16x1024
  shapeCasts_S1024x1x16x1024_S1024x16x1024 : S1024x1x16x1024.ShapeCasts S1024x16x1024
  shapeCasts_S1024x16x1024_S16384x1024 : S1024x16x1024.ShapeCasts S16384x1024
  slices_S1024x2x16x1024_S1024x1x16x1024_0_1_0_0 : S1024x2x16x1024.Slices ![0, 1, 0, 0] S1024x1x16x1024
  shapeCasts_S1024_S1x1024 : S1024.ShapeCasts S1x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  transposes_S128x1024_p1_0_S1024x128 : S128x1024.Transposes [1, 0] S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  transposes_S2048x1024_p1_0_S1024x2048 : S2048x1024.Transposes [1, 0] S1024x2048
  shapeCasts_S32x2048_S32x128x16 : S32x2048.ShapeCasts S32x128x16
  inb_S128x16_S128x16_0_0 : ∀ a, (![0, 0] : Fin 2 → Nat) a + S128x16.size a ≤ S128x16.size a
  h_S128x16 : 0 < S128x16.numel
  shapeCasts_S32x128_S32x128x1 : S32x128.ShapeCasts S32x128x1
  shapeCasts_S128x16_S1x128x16 : S128x16.ShapeCasts S1x128x16
  broadcasts_S32x128x1_S32x128x16 : S32x128x1.Broadcasts S32x128x16
  broadcasts_S1x128x16_S32x128x16 : S1x128x16.Broadcasts S32x128x16
  inb_S32x128x16_S32x128x16_0_0_0 : ∀ a, (![0, 0, 0] : Fin 3 → Nat) a + S32x128x16.size a ≤ S32x128x16.size a
  h_S32x128x16 : 0 < S32x128x16.numel
  reduces_S32x128x16_S32x128 : S32x128x16.Reduces [2] S32x128
  inb_S32x128_S32x128_0_0 : ∀ a, (![0, 0] : Fin 2 → Nat) a + S32x128.size a ≤ S32x128.size a
  h_S32x128 : 0 < S32x128.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S32x1024_S1024x128_S32x128_1_0_0_1_n_n_wf : DotDims.WF S32x1024 S1024x128 S32x128 [1] [0] [0] [1] [] []
  dot_S32x1024_S1024x2048_S32x2048_1_0_0_1_n_n_wf : DotDims.WF S32x1024 S1024x2048 S32x2048 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S4096x1024.size a
  hwx0_0 : ∀ i : grid0.Coords, EltTy.bits .bf16 = 32 ∨ (Rect.block (s := S4096x1024) S32x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x16.size a ≤ S4096x1024x16.size a
  hwx0_1 : ∀ i : grid0.Coords, EltTy.bits .f32 = 32 ∨ (Rect.block (s := S4096x1024x16) S32x128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S1024x1024.size a
  hwx0_2 : ∀ i : grid0.Coords, EltTy.bits .bf16 = 32 ∨ (Rect.block (s := S1024x1024) S128x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S1024x1024.size a
  hwx0_3 : ∀ i : grid0.Coords, EltTy.bits .bf16 = 32 ∨ (Rect.block (s := S1024x1024) S128x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x1024.size a
  hwx0_4 : ∀ i : grid0.Coords, EltTy.bits .f32 = 32 ∨ (Rect.block (s := S1x1024) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S16384x1024.size a
  hwx0_5 : ∀ i : grid0.Coords, EltTy.bits .bf16 = 32 ∨ (Rect.block (s := S16384x1024) S2048x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S16384x1024.size a
  hwx0_6 : ∀ i : grid0.Coords, EltTy.bits .bf16 = 32 ∨ (Rect.block (s := S16384x1024) S2048x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x16.size a ≤ S1024x16.size a
  hwx0_7 : ∀ i : grid0.Coords, EltTy.bits .f32 = 32 ∨ (Rect.block (s := S1024x16) S128x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x1024.size a
  hwx0_8 : ∀ i : grid0.Coords, EltTy.bits .f32 = 32 ∨ (Rect.block (s := S1x1024) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x128.size a ≤ S4096x1024.size a
  hwx0_9 : ∀ i : grid0.Coords, EltTy.bits .f32 = 32 ∨ (Rect.block (s := S4096x1024) S32x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x128x16.size a ≤ S4096x1024x16.size a
  hwx0_10 : ∀ i : grid0.Coords, EltTy.bits .f32 = 32 ∨ (Rect.block (s := S4096x1024x16) S32x128x16.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)

variable [Facts₀]

def dot_S32x1024_S1024x128_S32x128_1_0_0_1_n_n : DotDims S32x1024 S1024x128 S32x128 where
  lhsContracting := [1]
  rhsContracting := [0]
  lhsNonContracting := [0]
  rhsNonContracting := [1]
  lhsBatch := []
  rhsBatch := []
  wf := dot_S32x1024_S1024x128_S32x128_1_0_0_1_n_n_wf
def dot_S32x1024_S1024x2048_S32x2048_1_0_0_1_n_n : DotDims S32x1024 S1024x2048 S32x2048 where
  lhsContracting := [1]
  rhsContracting := [0]
  lhsNonContracting := [0]
  rhsNonContracting := [1]
  lhsBatch := []
  rhsBatch := []
  wf := dot_S32x1024_S1024x2048_S32x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S2048x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S2048x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x16.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14_0) S32x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v14_1) S32x128x16.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v14_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S4096x1024x16 : Shape := ⟨3, ![4096, 1024, 16]⟩
abbrev S1024x1024 : Shape := ⟨2, ![1024, 1024]⟩
abbrev S1024 : Shape := ⟨1, ![1024]⟩
abbrev S32768x1024 : Shape := ⟨2, ![32768, 1024]⟩
abbrev S1024x16 : Shape := ⟨2, ![1024, 16]⟩
abbrev S1x1024 : Shape := ⟨2, ![1, 1024]⟩
abbrev S_ : Shape := ⟨0, ![]⟩
abbrev S4096x1024x1 : Shape := ⟨3, ![4096, 1024, 1]⟩
abbrev S1024x32768 : Shape := ⟨2, ![1024, 32768]⟩
abbrev S4096x32768 : Shape := ⟨2, ![4096, 32768]⟩
abbrev S4096x1024x2x16 : Shape := ⟨4, ![4096, 1024, 2, 16]⟩
abbrev S4096x1024x1x16 : Shape := ⟨4, ![4096, 1024, 1, 16]⟩
abbrev S1x1024x16 : Shape := ⟨3, ![1, 1024, 16]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024x16, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S32768x1024, .f32⟩
  | .hbm, ⟨6, _⟩ => ⟨S1024x16, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .i1⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024x1, .f32⟩
  | .hbm, ⟨32, _⟩ => ⟨S1024x32768, .f32⟩
  | .hbm, ⟨33, _⟩ => ⟨S4096x32768, .f32⟩
  | .hbm, ⟨34, _⟩ => ⟨S4096x1024x2x16, .f32⟩
  | .hbm, ⟨35, _⟩ => ⟨S4096x1024x1x16, .f32⟩
  | .hbm, ⟨36, _⟩ => ⟨S4096x1024x16, .f32⟩
  | .hbm, ⟨37, _⟩ => ⟨S4096x1024x1x16, .f32⟩
  | .hbm, ⟨38, _⟩ => ⟨S4096x1024x16, .f32⟩
  | .hbm, ⟨39, _⟩ => ⟨S1024x16, .f32⟩
  | .hbm, ⟨40, _⟩ => ⟨S1x1024x16, .f32⟩
  | .hbm, ⟨41, _⟩ => ⟨S1x1024x16, .f32⟩
  | .hbm, ⟨42, _⟩ => ⟨S4096x1024x16, .f32⟩
  | .hbm, ⟨43, _⟩ => ⟨S4096x1024x16, .f32⟩
  | .hbm, ⟨44, _⟩ => ⟨S4096x1024x16, .f32⟩
  | .hbm, ⟨45, _⟩ => ⟨S4096x1024x16, .f32⟩
  | .hbm, ⟨46, _⟩ => ⟨S4096x1024x16, .f32⟩
  | .hbm, ⟨47, _⟩ => ⟨S4096x1024x16, .f32⟩
  | .hbm, ⟨48, _⟩ => ⟨S4096x1024x16, .f32⟩
  | .hbm, ⟨49, _⟩ => ⟨S4096x1024x1, .f32⟩
  | .hbm, ⟨50, _⟩ => ⟨S4096x1024x16, .f32⟩
  | .hbm, ⟨51, _⟩ => ⟨S4096x1024x16, .f32⟩
  | .hbm, ⟨52, _⟩ => ⟨S4096x1024x16, .f32⟩
  | .hbm, ⟨53, _⟩ => ⟨S4096x1024x16, .f32⟩
  | .hbm, ⟨54, _⟩ => ⟨S_, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S1024x1024, .f32⟩
  | .hbm, ⟨70, _⟩ => ⟨S4096x1024, .f32⟩
  | .hbm, ⟨71, _⟩ => ⟨S1x1024, .f32⟩
  | .hbm, ⟨72, _⟩ => ⟨S4096x1024, .f32⟩
  | .hbm, ⟨73, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S4096x1024_S4096x1024x1_0_1 : S4096x1024.BroadcastsInDim S4096x1024x1 (![0, 1] : Fin 2 → Fin S4096x1024x1.rank)
  transposes_S32768x1024_S1024x32768_1_0 : S32768x1024.Transposes [1, 0] S1024x32768
  shapeCasts_S4096x32768_S4096x1024x2x16 : S4096x32768.ShapeCasts S4096x1024x2x16
  slices_S4096x1024x2x16_S4096x1024x1x16_0_0_0_0 : S4096x1024x2x16.Slices ![0, 0, 0, 0] S4096x1024x1x16
  shapeCasts_S4096x1024x1x16_S4096x1024x16 : S4096x1024x1x16.ShapeCasts S4096x1024x16
  slices_S4096x1024x2x16_S4096x1024x1x16_0_0_1_0 : S4096x1024x2x16.Slices ![0, 0, 1, 0] S4096x1024x1x16
  bcast_S1024x16_S1x1024x16_1_2 : S1024x16.BroadcastsInDim S1x1024x16 (![1, 2] : Fin 2 → Fin S1x1024x16.rank)
  bcast_S4096x1024x1_S4096x1024x16_0_1_2 : S4096x1024x1.BroadcastsInDim S4096x1024x16 (![0, 1, 2] : Fin 3 → Fin S4096x1024x16.rank)
  bcast_S1x1024x16_S4096x1024x16_0_1_2 : S1x1024x16.BroadcastsInDim S4096x1024x16 (![0, 1, 2] : Fin 3 → Fin S4096x1024x16.rank)
  reducesTo_S4096x1024x16_S4096x1024_d2 : S4096x1024x16.ReducesTo [2] S4096x1024
  h_S_ : 0 < S_.numel
  dot_S4096x1024_S1024x1024_S4096x1024_1_0_0_1_n_n_wf : DotDims.WF S4096x1024 S1024x1024 S4096x1024 [1] [0] [0] [1] [] []
  dot_S4096x1024_S1024x32768_S4096x32768_1_0_0_1_n_n_wf : DotDims.WF S4096x1024 S1024x32768 S4096x32768 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x32768_S4096x32768_1_0_0_1_n_n : DotDims S4096x1024 S1024x32768 S4096x32768 where
  lhsContracting := [1]
  rhsContracting := [0]
  lhsNonContracting := [0]
  rhsNonContracting := [1]
  lhsBatch := []
  rhsBatch := []
  wf := dot_S4096x1024_S1024x32768_S4096x32768_1_0_0_1_n_n_wf

class Facts : Prop extends Facts₀ where

variable [Facts]
-- ==== Proof.KernelRun.lean ====
/-
  The run of the two-stage program with its final buffers named.

  The program is two pipelined regions among stretches of host operations.  Its run, from any launch memory, ends
  with every unscoped buffer of a core at the contents obtained by folding through the program: the host operations
  of the first stretch applied to the launch memory, then the first region's arrays at what its write-backs leave,
  then the second stretch, then the second region's arrays.  The frame statement keeps of this only the argument
  arrays; here every unscoped buffer is kept, so that the two result arrays can be read off the fold.
-/
import proofs.«118145_j8538394984487_2_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer `b` of every
    core at the last boundary's contents `W4 m ρ c b`. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

end Cert.KernelIdeal.Results

end
-- ==== Proof.SsmSpec.lean ====
/-
  The single-step state-space update, as functions of the argument arrays at the ideal values.

  For a batch row `b`, a feature `d`, a state coordinate `s`:
    u(b,d)      = Σₖ x(b,k) · W_in(d,k)
    δ(b,d)      = softplus(Σₖ x(b,k) · W_dt(d,k) + b_dt(d))
    B(b,d,s)    = Σₖ x(b,k) · W_bc((2d)·16 + s, k),   C(b,d,s) = Σₖ x(b,k) · W_bc((2d+1)·16 + s, k)
    h'(b,d,s)   = exp(δ(b,d) · (−exp A_log(d,s))) · h(b,d,s) + δ(b,d) · B(b,d,s) · u(b,d)
    y(b,d)      = Σₛ h'(b,d,s) · C(b,d,s) + D(d) · u(b,d)
    out(b,j)    = Σₖ (y(b,k) · σ(y(b,k))) · W_out(j,k) + b_out(j)
  with softplus z = max(z,0) + log(1 + exp(−|z − 0|)) and σ the logistic function.  The results are `out` and `h'`.
  The pieces (a row against a row, the scalar update of one state entry) are stated for any extents, so that the
  same pieces describe one tile of the computation and the whole arrays.
-/
import Idealize.ShloMosaic.PureOps.Ideal
import Idealize.ShloMosaic.PureOps.Ideal.Laws
import Idealize.ShloMosaic.Lib.ValueIdx

noncomputable section

open scoped BigOperators

namespace SsmSpec

open Idealize.ShloMosaic Idealize.ShloMosaic.ValueIdx

/-- The zero of the programs: the all-zero f32 word. -/
abbrev z0 : EReal := Ideal.ofBits .f32 0x00000000#32

theorem z0_eq : z0 = 0 := Ideal.ofBits_zero_f32

/-- Subtracting from the zero word is negation. -/
theorem z0_sub (a : EReal) : z0 - a = -a := by rw [z0_eq, zero_sub]

/-- Adding to the zero word changes nothing. -/
theorem z0_add (a : EReal) : z0 + a = a := by rw [z0_eq, zero_add]

/-- No extended real differs from itself: the self-comparison that guards against NaN is never taken. -/
theorem cmp_one_self (a : EReal) : Ideal.cmp .one a a = 0#1 := by
  simp [Ideal.cmp]

theorem cmp_une_self (a : EReal) : Ideal.cmp .une a a = 0#1 := by
  simp [Ideal.cmp]

/-- softplus as both programs spell it: `max(z, 0) + log1p(exp(−|z − 0|))`. -/
def softplus (z : EReal) : EReal :=
  max z z0 + Ideal.log1p (Ideal.exp (-(max (z - z0) (-(z - z0)))))

abbrev A2 (a b : ℕ) : Type := (⟨2, ![a, b]⟩ : Shape).Idx → EReal
abbrev A1 (a : ℕ) : Type := (⟨1, ![a]⟩ : Shape).Idx → EReal
abbrev A3 (a b c : ℕ) : Type := (⟨3, ![a, b, c]⟩ : Shape).Idx → EReal

/-- A row of `X` against a row of `W`: `Σₖ X(b,k) · W(d,k)`. -/
def dotRow {a n K : ℕ} (X : A2 a K) (W : A2 n K) (b : Fin a) (d : Fin n) : EReal :=
  ∑ k : Fin K, X (ix2 b k) * W (ix2 d k)

/-- Two row products agree when the rows do. -/
theorem dotRow_congr {a n a' n' K : ℕ} {X : A2 a K} {W : A2 n K} {X' : A2 a' K} {W' : A2 n' K}
    {b : Fin a} {d : Fin n} {b' : Fin a'} {d' : Fin n'}
    (hX : ∀ k, X (ix2 b k) = X' (ix2 b' k)) (hW : ∀ k, W (ix2 d k) = W' (ix2 d' k)) :
    dotRow X W b d = dotRow X' W' b' d' :=
  Finset.sum_congr rfl fun k _ => by rw [hX k, hW k]

/-- One state entry's update from the step size, the log-decay, the old state, the input projection and `u`. -/
def hcell (dl alog h bt u : EReal) : EReal :=
  Ideal.exp (dl * -(Ideal.exp alog)) * h + dl * bt * u

/-- The gated read-out, `y · σ(y)`. -/
def gate (y : EReal) : EReal := y * Ideal.logistic y

/-- The output projection of a read-out matrix: `Σₖ gate(Y(b,k)) · W(j,k) + bias(j)`. -/
def outOf {a n K : ℕ} (Y : A2 a K) (W : A2 n K) (bias : EReal) (b : Fin a) (j : Fin n) : EReal :=
  (∑ k : Fin K, gate (Y (ix2 b k)) * W (ix2 j k)) + bias

theorem outOf_congr {a n a' n' K : ℕ} {Y : A2 a K} {W : A2 n K} {Y' : A2 a' K} {W' : A2 n' K} {bias bias' : EReal}
    {b : Fin a} {j : Fin n} {b' : Fin a'} {j' : Fin n'}
    (hY : ∀ k, Y (ix2 b k) = Y' (ix2 b' k)) (hW : ∀ k, W (ix2 j k) = W' (ix2 j' k)) (hb : bias = bias') :
    outOf Y W bias b j = outOf Y' W' bias' b' j' := by
  unfold outOf
  rw [hb]
  exact congrArg (· + bias') (Finset.sum_congr rfl fun k _ => by rw [hY k, hW k])

/-- The step size: softplus of the projected row plus its bias. -/
def delta (X : A2 4096 1024) (Wdt : A2 1024 1024) (bdt : A1 1024) (b : Fin 4096) (d : Fin 1024) : EReal :=
  softplus (dotRow X Wdt b d + bdt (ix1 d))

/-- The row of the combined projection weight that feeds feature `d`, half `g` (0: input, 1: output), state `s`. -/
def bcRow (d : Fin 1024) (g : Fin 2) (s : Fin 16) : Fin 32768 :=
  ⟨(d.val * 2 + g.val) * 16 + s.val, by have := d.isLt; have := g.isLt; have := s.isLt; omega⟩

/-- The new state. -/
def hnew (X : A2 4096 1024) (H : A3 4096 1024 16) (Win Wdt : A2 1024 1024) (bdt : A1 1024) (Wbc : A2 32768 1024)
    (Alog : A2 1024 16) (b : Fin 4096) (d : Fin 1024) (s : Fin 16) : EReal :=
  hcell (delta X Wdt bdt b d) (Alog (ix2 d s)) (H (ix3 b d s)) (dotRow X Wbc b (bcRow d 0 s)) (dotRow X Win b d)

/-- The read-out before the output projection. -/
def yval (X : A2 4096 1024) (H : A3 4096 1024 16) (Win Wdt : A2 1024 1024) (bdt : A1 1024) (Wbc : A2 32768 1024)
    (Alog : A2 1024 16) (D : A1 1024) (b : Fin 4096) (d : Fin 1024) : EReal :=
  (z0 + ∑ s : Fin 16, hnew X H Win Wdt bdt Wbc Alog b d s * dotRow X Wbc b (bcRow d 1 s)) + D (ix1 d) * dotRow X Win b d

/-- The two result arrays, and the read-out array between the two stages. -/
def hnewArr (X : A2 4096 1024) (H : A3 4096 1024 16) (Win Wdt : A2 1024 1024) (bdt : A1 1024) (Wbc : A2 32768 1024)
    (Alog : A2 1024 16) : A3 4096 1024 16 :=
  fun i => hnew X H Win Wdt bdt Wbc Alog (i 0) (i 1) (i 2)

def yArr (X : A2 4096 1024) (H : A3 4096 1024 16) (Win Wdt : A2 1024 1024) (bdt : A1 1024) (Wbc : A2 32768 1024)
    (Alog : A2 1024 16) (D : A1 1024) : A2 4096 1024 :=
  fun i => yval X H Win Wdt bdt Wbc Alog D (i 0) (i 1)

def outArr (X : A2 4096 1024) (H : A3 4096 1024 16) (Win Wdt : A2 1024 1024) (bdt : A1 1024) (Wbc : A2 32768 1024)
    (Alog : A2 1024 16) (D : A1 1024) (Wout : A2 1024 1024) (bout : A1 1024) : A2 4096 1024 :=
  fun i => outOf (yArr X H Win Wdt bdt Wbc Alog D) Wout (bout (ix1 (i 1))) (i 0) (i 1)

end SsmSpec

end
-- ==== Proof.Entry.lean ====
/-
  What the two regions find on entry, and where the results end, in terms of the launch arrays.

  Before the first region the host operations only re-lay data: the float-format changes are the identity at the
  ideal values, a bias vector becomes a one-row matrix, and the combined projection weight `[32768, 1024]` is regrouped
  as `[1024, 2, 16, 1024]`, one half (`g = 0` or `1`) sliced out and regrouped as `[16384, 1024]`: its row
  `d · 16 + s` is row `(d · 2 + g) · 16 + s` of the combined weight.  Between the regions the output weight changes
  format and the output bias becomes a one-row matrix; the first region's read-out array is passed on as it was left.
-/
import proofs.«118145_j8538394984487_2_alg».proof.Proof.Gen.KernelIdeal.Frame
import proofs.«118145_j8538394984487_2_alg».proof.Proof.SsmSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Entry

open Idealize.ShloMosaic Idealize.ShloMosaic.TcCoe Idealize.ShloMosaic.ValueIdx Idealize.ShloMosaic.StableHlo
open Idealize.SL.Sem
open Cert.KernelIdeal Cert.KernelIdeal.Gen SsmSpec

/-- One half of the combined projection weight, regrouped to `[16384, 1024]`, read at row `d · 16 + s`. -/
theorem half_at (g : Fin 2) (W : S32768x1024.Idx → EReal)
    (hs : S1024x2x16x1024.Slices ![0, g.val, 0, 0] S1024x1x16x1024)
    (d : Fin 1024) (s : Fin 16) (k : Fin 1024) (r : Fin 16384) (hr : r.val = d.val * 16 + s.val) :
    shapeCast S16384x1024 (shapeCast S1024x16x1024
        (extractStridedSlice S1024x1x16x1024 ![0, g.val, 0, 0] (shapeCast S1024x2x16x1024 W shapeCasts_S32768x1024_S1024x2x16x1024) hs)
        shapeCasts_S1024x1x16x1024_S1024x16x1024) shapeCasts_S1024x16x1024_S16384x1024 (ix2 r k)
      = W (ix2 (bcRow d g s) k) := by
  refine (shapeCast_apply _ shapeCasts_S1024x16x1024_S16384x1024 (ix2 r k) (ix3 d s k) ?_).trans ?_
  · rw [Shape.rowMajor_val_three, Shape.rowMajor_val_two]
    show (d.val * 16 + s.val) * 1024 + k.val = r.val * 1024 + k.val
    rw [hr]
  refine (shapeCast_apply _ shapeCasts_S1024x1x16x1024_S1024x16x1024 (ix3 d s k) (ix4 d (0 : Fin 1) s k) ?_).trans ?_
  · rw [Shape.rowMajor_val_four, Shape.rowMajor_val_three]
    show ((d.val * 1 + 0) * 16 + s.val) * 1024 + k.val = (d.val * 16 + s.val) * 1024 + k.val
    rw [Nat.mul_one, Nat.add_zero]
  refine (extractStridedSlice_apply _ _ hs (ix4 d (0 : Fin 1) s k) (ix4 d g s k) ?_).trans ?_
  · intro a
    match a with
    | ⟨0, _⟩ => exact (Nat.zero_add _).symm
    | ⟨1, _⟩ => exact (Nat.add_zero _).symm
    | ⟨2, _⟩ => exact (Nat.zero_add _).symm
    | ⟨3, _⟩ => exact (Nat.zero_add _).symm
  refine shapeCast_apply W shapeCasts_S32768x1024_S1024x2x16x1024 (ix4 d g s k) (ix2 (bcRow d g s) k) ?_
  rw [Shape.rowMajor_val_two, Shape.rowMajor_val_four]
  rfl

variable (m : (ℓ : Loc nD τ sig) → Buf (Elt Ideal) ℓ) (ρ : Dev nD → PrngReg) (c : Dev nD)

/-! ## The first region's entry -/

theorem x_eq : (V1 m ρ c main_v0 : S4096x1024.Idx → EReal) = m ((c : Thread nD τ).loc main_arg0) := by
  show StableHlo.after hostOps0 (W0 m ρ c) (Proc.devRef .tc main_v0) = _
  after_results
  rfl

theorem h_eq : (V1 m ρ c main_arg1 : S4096x1024x16.Idx → EReal) = m ((c : Thread nD τ).loc main_arg1) := by
  show StableHlo.after hostOps0 (W0 m ρ c) (Proc.devRef .tc main_arg1) = _
  after_results

theorem win_eq : (V1 m ρ c main_v1 : S1024x1024.Idx → EReal) = m ((c : Thread nD τ).loc main_arg2) := by
  show StableHlo.after hostOps0 (W0 m ρ c) (Proc.devRef .tc main_v1) = _
  after_results
  rfl

theorem wdt_eq : (V1 m ρ c main_v2 : S1024x1024.Idx → EReal) = m ((c : Thread nD τ).loc main_arg3) := by
  show StableHlo.after hostOps0 (W0 m ρ c) (Proc.devRef .tc main_v2) = _
  after_results
  rfl

theorem alog_eq : (V1 m ρ c main_arg6 : S1024x16.Idx → EReal) = m ((c : Thread nD τ).loc main_arg6) := by
  show StableHlo.after hostOps0 (W0 m ρ c) (Proc.devRef .tc main_arg6) = _
  after_results

theorem bdt_at (q : Fin 1024) :
    (V1 m ρ c main_v12 : S1x1024.Idx → EReal) (ix2 (0 : Fin 1) q) = m ((c : Thread nD τ).loc main_arg4) (ix1 q) := by
  have e : (V1 m ρ c main_v12 : S1x1024.Idx → EReal)
      = shapeCast S1x1024 (m ((c : Thread nD τ).loc main_arg4) : S1024.Idx → EReal) shapeCasts_S1024_S1x1024 := by
    show StableHlo.after hostOps0 (W0 m ρ c) (Proc.devRef .tc main_v12) = _
    after_results
    rfl
  rw [e, shapeCast_a_1a_apply]

theorem dpar_at (q : Fin 1024) :
    (V1 m ρ c main_v13 : S1x1024.Idx → EReal) (ix2 (0 : Fin 1) q) = m ((c : Thread nD τ).loc main_arg7) (ix1 q) := by
  have e : (V1 m ρ c main_v13 : S1x1024.Idx → EReal)
      = shapeCast S1x1024 (m ((c : Thread nD τ).loc main_arg7) : S1024.Idx → EReal) shapeCasts_S1024_S1x1024 := by
    show StableHlo.after hostOps0 (W0 m ρ c) (Proc.devRef .tc main_v13) = _
    after_results
    rfl
  rw [e, shapeCast_a_1a_apply]

theorem bp_at (d : Fin 1024) (s : Fin 16) (k : Fin 1024) (r : Fin 16384) (hr : r.val = d.val * 16 + s.val) :
    (V1 m ρ c main_v10 : S16384x1024.Idx → EReal) (ix2 r k) = m ((c : Thread nD τ).loc main_arg5) (ix2 (bcRow d 0 s) k) := by
  have e : (V1 m ρ c main_v10 : S16384x1024.Idx → EReal)
      = shapeCast S16384x1024 (shapeCast S1024x16x1024
          (extractStridedSlice S1024x1x16x1024 ![0, 0, 0, 0] (shapeCast S1024x2x16x1024 (m ((c : Thread nD τ).loc main_arg5) : S32768x1024.Idx → EReal) shapeCasts_S32768x1024_S1024x2x16x1024) slices_S1024x2x16x1024_S1024x1x16x1024_0_0_0_0)
          shapeCasts_S1024x1x16x1024_S1024x16x1024) shapeCasts_S1024x16x1024_S16384x1024 := by
    show StableHlo.after hostOps0 (W0 m ρ c) (Proc.devRef .tc main_v10) = _
    after_results
    rfl
  rw [e]
  exact half_at 0 _ slices_S1024x2x16x1024_S1024x1x16x1024_0_0_0_0 d s k r hr

theorem cp_at (d : Fin 1024) (s : Fin 16) (k : Fin 1024) (r : Fin 16384) (hr : r.val = d.val * 16 + s.val) :
    (V1 m ρ c main_v11 : S16384x1024.Idx → EReal) (ix2 r k) = m ((c : Thread nD τ).loc main_arg5) (ix2 (bcRow d 1 s) k) := by
  have e : (V1 m ρ c main_v11 : S16384x1024.Idx → EReal)
      = shapeCast S16384x1024 (shapeCast S1024x16x1024
          (extractStridedSlice S1024x1x16x1024 ![0, 1, 0, 0] (shapeCast S1024x2x16x1024 (m ((c : Thread nD τ).loc main_arg5) : S32768x1024.Idx → EReal) shapeCasts_S32768x1024_S1024x2x16x1024) slices_S1024x2x16x1024_S1024x1x16x1024_0_1_0_0)
          shapeCasts_S1024x1x16x1024_S1024x16x1024) shapeCasts_S1024x16x1024_S16384x1024 := by
    show StableHlo.after hostOps0 (W0 m ρ c) (Proc.devRef .tc main_v11) = _
    after_results
    rfl
  rw [e]
  exact half_at 1 _ slices_S1024x2x16x1024_S1024x1x16x1024_0_1_0_0 d s k r hr

/-! ## The second region's entry -/

theorem y_eq : (V3 m ρ c main_v14_0 : S4096x1024.Idx → EReal) = (dat0 (V1 m ρ) c).arrAt 9 cfg0.N := by
  have e : (V3 m ρ c main_v14_0 : S4096x1024.Idx → EReal) = W2 m ρ c (Proc.devRef .tc main_v14_0) := by
    show StableHlo.after hostOps1 (W2 m ρ c) (Proc.devRef .tc main_v14_0) = _
    after_results
  rw [e]
  exact W2_arr m ρ c 9

theorem wout_eq : (V3 m ρ c main_v15 : S1024x1024.Idx → EReal) = m ((c : Thread nD τ).loc main_arg8) := by
  have e : (V3 m ρ c main_v15 : S1024x1024.Idx → EReal) = (W2 m ρ c (Proc.devRef .tc main_arg8) : S1024x1024.Idx → EReal) := by
    show StableHlo.after hostOps1 (W2 m ρ c) (Proc.devRef .tc main_v15) = _
    after_results
    rfl
  rw [e, W2_of_ne m ρ c main_arg8 (by decide)]
  show StableHlo.after hostOps0 (W0 m ρ c) (Proc.devRef .tc main_arg8) = _
  after_results

theorem bout_at (j : Fin 1024) :
    (V3 m ρ c main_v16 : S1x1024.Idx → EReal) (ix2 (0 : Fin 1) j) = m ((c : Thread nD τ).loc main_arg9) (ix1 j) := by
  have e : (V3 m ρ c main_v16 : S1x1024.Idx → EReal)
      = shapeCast S1x1024 (W2 m ρ c (Proc.devRef .tc main_arg9) : S1024.Idx → EReal) shapeCasts_S1024_S1x1024 := by
    show StableHlo.after hostOps1 (W2 m ρ c) (Proc.devRef .tc main_v16) = _
    after_results
    rfl
  have e9 : (W2 m ρ c (Proc.devRef .tc main_arg9) : S1024.Idx → EReal) = m ((c : Thread nD τ).loc main_arg9) := by
    rw [W2_of_ne m ρ c main_arg9 (by decide)]
    show StableHlo.after hostOps0 (W0 m ρ c) (Proc.devRef .tc main_arg9) = _
    after_results
  rw [e, e9, shapeCast_a_1a_apply]

/-! ## Where the results end -/

theorem out_end : (W4 m ρ c (Proc.devRef .tc main_v17) : S4096x1024.Idx → EReal) = (dat1 (V3 m ρ) c).arrAt 3 cfg1.N :=
  W4_arr m ρ c 3

theorem hnew_end : (W4 m ρ c (Proc.devRef .tc main_v14_1) : S4096x1024x16.Idx → EReal) = (dat0 (V1 m ρ) c).arrAt 10 cfg0.N := by
  rw [W4_of_ne m ρ c main_v14_1 (by decide)]
  have e : W3 m ρ c (Proc.devRef .tc main_v14_1) = W2 m ρ c (Proc.devRef .tc main_v14_1) := by
    show StableHlo.after hostOps1 (W2 m ρ c) (Proc.devRef .tc main_v14_1) = _
    after_results
  rw [e]
  exact W2_arr m ρ c 10

end Cert.KernelIdeal.Entry

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LibSplitLast.lean ====
/-
  Two layout facts about the LAST axis, read at an index written by coordinates, for any element type and any extents.

  A matrix `[a, m]` with `m = b · c` cast to `[a, b, c]` keeps its elements in row-major order, so it reads, at
  `(i, j, k)`, the matrix at `(i, j · c + k)`.  A reduction that drops the last axis of an `[a, b, c]` array names,
  for a reduced index `(i, j)` and a coordinate `k` on the dropped axis, the index `(i, j, k)`.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a, m]` array, `m = b · c`, cast to `[a, b, c]` reads, at `(i, j, k)`, the operand at `(i, j · c + k)`. -/
theorem shapeCast_am_abc_apply {a b c m : ℕ} (x : (⟨2, ![a, m]⟩ : Shape).Idx → α)
    (h : (⟨2, ![a, m]⟩ : Shape).ShapeCasts ⟨3, ![a, b, c]⟩) (hm : m = b * c) (i : Fin a) (j : Fin b) (k : Fin c)
    (r : Fin m) (hr : r.val = j.val * c + k.val) :
    shapeCast ⟨3, ![a, b, c]⟩ x h (ix3 i j k) = x (ix2 i r) :=
  shapeCast_apply x h _ _ (by
    rw [Shape.rowMajor_val_three, Shape.rowMajor_val_two]
    show i.val * m + r.val = (i.val * b + j.val) * c + k.val
    rw [hr, hm, Nat.add_mul, Nat.mul_assoc, Nat.add_assoc])

/-- Dropping the LAST axis of `[a, b, c]`: the index over `(i, j)` whose last coordinate is `k` is `(i, j, k)`. -/
theorem lift_last_ix2 {a b c : ℕ} (h : (⟨3, ![a, b, c]⟩ : Shape).Reduces [2] (⟨2, ![a, b]⟩ : Shape)) (i : Fin a) (j : Fin b)
    (k : Fin ((⟨3, ![a, b, c]⟩ : Shape).size 2)) :
    h.lift (ix2 i j) k = ix3 i j (⟨k.val, k.isLt⟩ : Fin c) := by
  funext ax; apply Fin.ext
  fin_cases ax <;> rfl

end Idealize.ShloMosaic.ValueIdx
-- ==== Proof.TileProj.lean ====
/-
  One tile of the first stage, read at an index: the four projections and the step size.

  A tile is 32 batch rows against 128 features.  Its projections are row-against-row products of the tile's rows of
  `x` with the tile's rows of a weight block (the block is transposed before the product, so the product's entry
  `(p, q)` pairs row `p` of `x` with row `q` of the block).  The state projections come as a `[32, 2048]` product
  regrouped to `[32, 128, 16]`: entry `(p, q, s)` is the product's column `q · 16 + s`.
-/
import proofs.«118145_j8538394984487_2_alg».proof.Proof.Gen.KernelIdeal.Skeleton
import proofs.«118145_j8538394984487_2_alg».proof.Proof.SsmSpec
import proofs.«118145_j8538394984487_2_alg».proof.Proof.LibDotRows
import proofs.«118145_j8538394984487_2_alg».proof.Proof.LibSplitLast
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Idealize.ShloMosaic Idealize.ShloMosaic.ValueIdx Cert.KernelIdeal Cert.KernelIdeal.Gen SsmSpec

/-- A tile's rows of `x` against a 128-row weight block, at `(p, q)`: row `p` of `x` against row `q` of the block. -/
theorem proj128_at (x0 : Vec Ideal S32x1024 .bf16) (w : Vec Ideal S128x1024 .bf16) (p : Fin 32) (q : Fin 128) :
    matmul (φ₂ := .bf16) dot_S32x1024_S1024x128_S32x128_1_0_0_1_n_n none (k0_pay3 x0)
        (transpose S1024x128 [1, 0] (shapeCast S128x1024 w shapeCasts_S128x1024_S128x1024) transposes_S128x1024_p1_0_S1024x128)
        (constant (F := Ideal) S32x128 .f32 0x00000000#32) (ix2 p q)
      = dotRow (a := 32) (n := 128) (K := 1024) x0 w p q := by
  refine (matmul_zero_rows (R := 32) (K := 1024) (J := 128) dot_S32x1024_S1024x128_S32x128_1_0_0_1_n_n none rfl rfl
    (fun _ _ => rfl) (fun _ _ => rfl) (fun _ _ => rfl) (fun _ _ => rfl) _ _ p q).trans ?_
  unfold dotRow k0_pay3
  refine Finset.sum_congr rfl fun k _ => ?_
  rw [shapeCast_self, transpose_ix2_apply, shapeCast_self]

/-- The same against a 2048-row block, at `(p, r)`. -/
theorem proj2048_at (x0 : Vec Ideal S32x1024 .bf16) (w : Vec Ideal S2048x1024 .bf16) (p : Fin 32) (r : Fin 2048) :
    matmul (φ₂ := .bf16) dot_S32x1024_S1024x2048_S32x2048_1_0_0_1_n_n none (k0_pay3 x0)
        (transpose S1024x2048 [1, 0] (shapeCast S2048x1024 w shapeCasts_S2048x1024_S2048x1024) transposes_S2048x1024_p1_0_S1024x2048)
        (constant (F := Ideal) S32x2048 .f32 0x00000000#32) (ix2 p r)
      = dotRow (a := 32) (n := 2048) (K := 1024) x0 w p r := by
  refine (matmul_zero_rows (R := 32) (K := 1024) (J := 2048) dot_S32x1024_S1024x2048_S32x2048_1_0_0_1_n_n none rfl rfl
    (fun _ _ => rfl) (fun _ _ => rfl) (fun _ _ => rfl) (fun _ _ => rfl) _ _ p r).trans ?_
  unfold dotRow k0_pay3
  refine Finset.sum_congr rfl fun k _ => ?_
  rw [shapeCast_self, transpose_ix2_apply, shapeCast_self]

/-- `u` on a tile. -/
theorem pay4_at (x0 : Vec Ideal S32x1024 .bf16) (x2 : Vec Ideal S128x1024 .bf16) (p : Fin 32) (q : Fin 128) :
    k0_pay4 x0 x2 (ix2 p q) = dotRow (a := 32) (n := 128) (K := 1024) x0 x2 p q := by
  unfold k0_pay4
  exact proj128_at x0 x2 p q

/-- The row of a 2048-row block that feeds feature `q`, state `s`. -/
def row16 (q : Fin 128) (s : Fin 16) : Fin 2048 := ⟨q.val * 16 + s.val, by have := q.isLt; have := s.isLt; omega⟩

/-- A state projection on a tile, at `(p, q, s)`: row `p` of `x` against row `q · 16 + s` of the block. -/
theorem pay6_at (x0 : Vec Ideal S32x1024 .bf16) (x5 : Vec Ideal S2048x1024 .bf16) (p : Fin 32) (q : Fin 128) (s : Fin 16) :
    k0_pay6 x0 x5 (ix3 p q s) = dotRow (a := 32) (n := 2048) (K := 1024) x0 x5 p (row16 q s) := by
  unfold k0_pay6
  refine (shapeCast_am_abc_apply (a := 32) (b := 128) (c := 16) (m := 2048) _ shapeCasts_S32x2048_S32x128x16 rfl p q s (row16 q s) rfl).trans ?_
  exact proj2048_at x0 x5 p (row16 q s)

theorem pay7_at (x0 : Vec Ideal S32x1024 .bf16) (x6 : Vec Ideal S2048x1024 .bf16) (p : Fin 32) (q : Fin 128) (s : Fin 16) :
    k0_pay7 x0 x6 (ix3 p q s) = dotRow (a := 32) (n := 2048) (K := 1024) x0 x6 p (row16 q s) := by
  unfold k0_pay7
  refine (shapeCast_am_abc_apply (a := 32) (b := 128) (c := 16) (m := 2048) _ shapeCasts_S32x2048_S32x128x16 rfl p q s (row16 q s) rfl).trans ?_
  exact proj2048_at x0 x6 p (row16 q s)

/-- softplus as the tile spells it — the self-comparison's branch never taken, `0 − |t|` for `−|t|`. -/
theorem softplus_tile (A : EReal) :
    Scalar.select (Ideal.cmp .one (A - z0) (A - z0)) (A + z0)
        (max A z0 + Ideal.log1p (Ideal.exp (z0 - max (A - z0) (-(A - z0))))) = softplus A := by
  rw [cmp_one_self, select_zero, z0_sub]
  rfl

/-- The step size on a tile. -/
theorem pay5_at (x0 : Vec Ideal S32x1024 .bf16) (x3 : Vec Ideal S128x1024 .bf16) (x4 : Vec Ideal S1x128 .f32) (p : Fin 32) (q : Fin 128) :
    k0_pay5 x0 x3 x4 (ix2 p q) = softplus (dotRow (a := 32) (n := 128) (K := 1024) x0 x3 p q + x4 (ix2 (0 : Fin 1) q)) := by
  unfold k0_pay5
  refine (softplus_tile _).trans (congrArg softplus ?_)
  refine congrArg₂ (· + ·) (proj128_at x0 x3 p q) ?_
  rw [broadcastTo_1b_ab_apply, shapeCast_self]

end Cert.KernelIdeal.Tile

end
-- ==== Proof.LibLayout3.lean ====
/-
  Layout operations at rank 3 read at an index written by coordinates, for any element type and any extents:
  a shape cast that appends a unit axis ([a,b] → [a,b,1]); a broadcast along a trailing unit axis
  ([a,b,1] → [a,b,c]) and along a leading unit axis ([1,b,c] → [a,b,c]); and, for a reduction over ONE axis,
  the index that a reduced index and a coordinate on the dropped axis name — the middle axis of a rank-3 array,
  the last axis of a rank-2 array.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- Dropping the MIDDLE axis of `[a, b, c]`: the index over `(i, k)` whose middle coordinate is `d` is `(i, d, k)`. -/
theorem lift_mid_ix2 {a b c : ℕ} (h : (⟨3, ![a, b, c]⟩ : Shape).Reduces [1] (⟨2, ![a, c]⟩ : Shape)) (i : Fin a) (k : Fin c)
    (d : Fin ((⟨3, ![a, b, c]⟩ : Shape).size 1)) :
    h.lift (ix2 i k) d = ix3 i (⟨d.val, d.isLt⟩ : Fin b) k := by
  funext ax; apply Fin.ext
  fin_cases ax <;> rfl

/-- Dropping the LAST axis of `[a, b]`: the index over `i` whose last coordinate is `k` is `(i, k)`. -/
theorem lift_last_ix1 {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

end Idealize.ShloMosaic.ValueIdx
-- ==== Proof.TileCell.lean ====
/-
  One tile of each stage, read at an index: the state update, the read-out, and the output projection.

  First stage, tile entry `(p, q, s)` (batch row `p`, feature `q`, state `s`): the step size and `u` are spread along
  the state axis, the negated exponential of the log-decay is spread along the batch axis, and the entry is the scalar
  update of the old state entry.  The read-out at `(p, q)` sums the new state against the output projection over the
  16 state coordinates and adds the skip term.  Second stage, tile entry `(p, j)`: the gated read-out row `p` against
  row `j` of the output weight (transposed before the product), plus the bias.
-/
import proofs.«118145_j8538394984487_2_alg».proof.Proof.Gen.KernelIdeal.Skeleton
import proofs.«118145_j8538394984487_2_alg».proof.Proof.SsmSpec
import proofs.«118145_j8538394984487_2_alg».proof.Proof.LibDotRows
import proofs.«118145_j8538394984487_2_alg».proof.Proof.LibLayout3
import proofs.«118145_j8538394984487_2_alg».proof.Proof.LibSplitLast
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Idealize.ShloMosaic Idealize.ShloMosaic.ValueIdx Cert.KernelIdeal Cert.KernelIdeal.Gen SsmSpec

/-- A `[32, 128]` tile spread along the state axis reads, at `(p, q, s)`, the tile at `(p, q)`. -/
theorem spread_state (v : FVec Ideal S32x128 .f32) (p : Fin 32) (q : Fin 128) (s : Fin 16) :
    broadcastTo S32x128x16 (shapeCast S32x128x1 v shapeCasts_S32x128_S32x128x1) broadcasts_S32x128x1_S32x128x16 (ix3 p q s)
      = v (ix2 p q) := by
  rw [broadcastTo_ab1_abc_apply (a := 32) (b := 128) (c := 16), shapeCast_ab_ab1_apply (a := 32) (b := 128)]

/-- The negated exponential of the log-decay block, spread along the batch axis, at `(p, q, s)`. -/
theorem spread_decay (v38 : Vec Ideal S128x16 .f32) (p : Fin 32) (q : Fin 128) (s : Fin 16) :
    broadcastTo S32x128x16
        (shapeCast S1x128x16 (subf (broadcast S128x16 (Scalar.ofBits (F := Ideal) .f32 0x00000000#32)) (exp v38)) shapeCasts_S128x16_S1x128x16)
        broadcasts_S1x128x16_S32x128x16 (ix3 p q s)
      = -(Ideal.exp (v38 (ix2 q s))) := by
  rw [broadcastTo_1bc_abc_apply (a := 32) (b := 128) (c := 16), shapeCast_ab_1ab_apply (a := 128) (b := 16)]
  exact z0_sub _

/-- One state entry on a tile. -/
theorem pay1_at (v5 v27 : FVec Ideal S32x128 .f32) (v32 : FVec Ideal S32x128x16 .f32) (v38 : Vec Ideal S128x16 .f32)
    (v48 : Vec Ideal S32x128x16 .f32) (p : Fin 32) (q : Fin 128) (s : Fin 16) :
    k0_pay1 v5 v27 v32 v38 v48 (ix3 p q s)
      = hcell (v27 (ix2 p q)) (v38 (ix2 q s)) (v48 (ix3 p q s)) (v32 (ix3 p q s)) (v5 (ix2 p q)) := by
  unfold k0_pay1 hcell
  exact congrArg₂ (· + ·)
    (congrArg₂ (· * ·) (congrArg Ideal.exp (congrArg₂ (· * ·) (spread_state v27 p q s) (spread_decay v38 p q s))) rfl)
    (congrArg₂ (· * ·) (congrArg₂ (· * ·) (spread_state v27 p q s) rfl) (spread_state v5 p q s))

/-- The read-out on a tile: the new state against the output projection, summed over the state axis, plus the skip term. -/
theorem pay2_at (v5 v27 : FVec Ideal S32x128 .f32) (v32 v37 : FVec Ideal S32x128x16 .f32) (v38 : Vec Ideal S128x16 .f32)
    (v48 : Vec Ideal S32x128x16 .f32) (v58 : Vec Ideal S1x128 .f32) (p : Fin 32) (q : Fin 128) :
    k0_pay2 v5 v27 v32 v37 v38 v48 v58 (ix2 p q)
      = (z0 + ∑ s : Fin 16, k0_pay1 v5 v27 v32 v38 v48 (ix3 p q s) * v37 (ix3 p q s)) + v58 (ix2 (0 : Fin 1) q) * v5 (ix2 p q) := by
  unfold k0_pay2
  refine congrArg₂ (· + ·) ?_ ?_
  · refine (Ideal.multiReduction_add_single (mulf (k0_pay1 v5 v27 v32 v38 v48) v37) 0x00000000#32
      reduces_S32x128x16_S32x128 (.inl rfl) rfl (ix2 p q)).trans ?_
    rw [z0_add]
    refine Finset.sum_congr rfl fun k _ => ?_
    rw [lift_last_ix2 (a := 32) (b := 128) (c := 16)]
    rfl
  · refine congrArg₂ (· * ·) ?_ rfl
    rw [broadcastTo_1b_ab_apply, shapeCast_self]

/-- The output tile of the second stage, at `(p, j)`. -/
theorem pay_out_at (x0 : Vec Ideal S512x1024 .f32) (x1 : Vec Ideal S1024x1024 .bf16) (x2 : Vec Ideal S1x1024 .f32)
    (p : Fin 512) (j : Fin 1024) :
    k1_pay1 x0 x1 x2 (ix2 p j) = outOf (a := 512) (n := 1024) (K := 1024) x0 x1 (x2 (ix2 (0 : Fin 1) j)) p j := by
  unfold k1_pay1 outOf
  refine congrArg₂ (· + ·) ?_ ?_
  · refine (matmul_zero_rows (R := 512) (K := 1024) (J := 1024) dot_S512x1024_S1024x1024_S512x1024_1_0_0_1_n_n none rfl rfl
      (fun _ _ => rfl) (fun _ _ => rfl) (fun _ _ => rfl) (fun _ _ => rfl) _ _ p j).trans ?_
    refine Finset.sum_congr rfl fun k _ => ?_
    refine congrArg₂ (· * ·) ?_ ?_
    · show (shapeCast S512x1024 x0 shapeCasts_S512x1024_S512x1024) (ix2 p k)
          * Ideal.logistic ((shapeCast S512x1024 x0 shapeCasts_S512x1024_S512x1024) (ix2 p k)) = gate (x0 (ix2 p k))
      rw [shapeCast_self]
      rfl
    · rw [transpose_ix2_apply, shapeCast_self]
  · rw [broadcastTo_1b_ab_apply, shapeCast_self]

end Cert.KernelIdeal.Tile

end
-- ==== Proof.Region0.lean ====
/-
  The first stage, from tiles to whole arrays.

  The grid has 8 × 128 points; point `t` works on the feature tile `t / 128` (128 features) and the batch tile
  `t % 128` (32 rows).  Each window's block at `t` is the corresponding rows of its array, so an entry of a block
  is an entry of a launch array at the global row `(t % 128) · 32 + p` and the global feature `(t / 128) · 128 + q`.
  With the tile lemmas this makes what point `t` writes back the restriction, to its block, of the new-state array
  and of the read-out array; the blocks tile both arrays, so the arrays end holding those functions everywhere.
-/
import proofs.«118145_j8538394984487_2_alg».proof.Proof.Entry
import proofs.«118145_j8538394984487_2_alg».proof.Proof.TileProj
import proofs.«118145_j8538394984487_2_alg».proof.Proof.TileCell

set_option maxRecDepth 16384

noncomputable section

open scoped BigOperators

namespace Cert.KernelIdeal.Stage1

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Tile Cert.KernelIdeal.Entry SsmSpec

theorem hz2 : (![0, 0] : Fin 2 → Nat) = fun _ => 0 := funext fun a => by fin_cases a <;> rfl
theorem hz3 : (![0, 0, 0] : Fin 3 → Nat) = fun _ => 0 := funext fun a => by fin_cases a <;> rfl

/-! ## The printed index maps over the grid -/

theorem tlt (t : Fin cfg0.N) : t.val < 1024 := lt_of_lt_of_eq t.isLt N_0

theorem idx0 : ∀ t : Fin cfg0.N, win0_0.index t (0 : Fin 2) = t.val % 128 ∧ win0_0.index t (1 : Fin 2) = 0 :=
  (by decide +kernel : ∀ t : Fin grid0.N, _)
theorem idx1 : ∀ t : Fin cfg0.N, win0_1.index t (0 : Fin 3) = t.val % 128 ∧ win0_1.index t (1 : Fin 3) = t.val / 128 ∧ win0_1.index t (2 : Fin 3) = 0 :=
  (by decide +kernel : ∀ t : Fin grid0.N, _)
theorem idx2 : ∀ t : Fin cfg0.N, win0_2.index t (0 : Fin 2) = t.val / 128 ∧ win0_2.index t (1 : Fin 2) = 0 :=
  (by decide +kernel : ∀ t : Fin grid0.N, _)
theorem idx3 : ∀ t : Fin cfg0.N, win0_3.index t (0 : Fin 2) = t.val / 128 ∧ win0_3.index t (1 : Fin 2) = 0 :=
  (by decide +kernel : ∀ t : Fin grid0.N, _)
theorem idx4 : ∀ t : Fin cfg0.N, win0_4.index t (0 : Fin 2) = 0 ∧ win0_4.index t (1 : Fin 2) = t.val / 128 :=
  (by decide +kernel : ∀ t : Fin grid0.N, _)
theorem idx5 : ∀ t : Fin cfg0.N, win0_5.index t (0 : Fin 2) = t.val / 128 ∧ win0_5.index t (1 : Fin 2) = 0 :=
  (by decide +kernel : ∀ t : Fin grid0.N, _)
theorem idx6 : ∀ t : Fin cfg0.N, win0_6.index t (0 : Fin 2) = t.val / 128 ∧ win0_6.index t (1 : Fin 2) = 0 :=
  (by decide +kernel : ∀ t : Fin grid0.N, _)
theorem idx7 : ∀ t : Fin cfg0.N, win0_7.index t (0 : Fin 2) = t.val / 128 ∧ win0_7.index t (1 : Fin 2) = 0 :=
  (by decide +kernel : ∀ t : Fin grid0.N, _)
theorem idx8 : ∀ t : Fin cfg0.N, win0_8.index t (0 : Fin 2) = 0 ∧ win0_8.index t (1 : Fin 2) = t.val / 128 :=
  (by decide +kernel : ∀ t : Fin grid0.N, _)
theorem idx9 : ∀ t : Fin cfg0.N, win0_9.index t (0 : Fin 2) = t.val % 128 ∧ win0_9.index t (1 : Fin 2) = t.val / 128 :=
  (by decide +kernel : ∀ t : Fin grid0.N, _)
theorem idx10 : ∀ t : Fin cfg0.N, win0_10.index t (0 : Fin 3) = t.val % 128 ∧ win0_10.index t (1 : Fin 3) = t.val / 128 ∧ win0_10.index t (2 : Fin 3) = 0 :=
  (by decide +kernel : ∀ t : Fin grid0.N, _)

/-- The global batch row of tile row `p` at point `t`, and the global feature of tile feature `q`. -/
def gb (t : Fin cfg0.N) (p : Fin 32) : Fin 4096 := ⟨(t.val % 128) * 32 + p.val, by have := tlt t; have := p.isLt; omega⟩
def gd (t : Fin cfg0.N) (q : Fin 128) : Fin 1024 := ⟨(t.val / 128) * 128 + q.val, by have := tlt t; have := q.isLt; omega⟩

variable (m : (ℓ : Loc nD τ sig) → Buf (Elt Ideal) ℓ) (ρ : Dev nD → PrngReg) (c : Dev nD)

/-- The launch arrays. -/
abbrev aX : A2 4096 1024 := m ((c : Thread nD τ).loc main_arg0)
abbrev aH : A3 4096 1024 16 := m ((c : Thread nD τ).loc main_arg1)
abbrev aWin : A2 1024 1024 := m ((c : Thread nD τ).loc main_arg2)
abbrev aWdt : A2 1024 1024 := m ((c : Thread nD τ).loc main_arg3)
abbrev aBdt : A1 1024 := m ((c : Thread nD τ).loc main_arg4)
abbrev aWbc : A2 32768 1024 := m ((c : Thread nD τ).loc main_arg5)
abbrev aAlog : A2 1024 16 := m ((c : Thread nD τ).loc main_arg6)
abbrev aD : A1 1024 := m ((c : Thread nD τ).loc main_arg7)

/-! ## A block's entry is a launch array's entry -/

theorem blk0_at (t : Fin cfg0.N) (p : Fin 32) (k : Fin 1024) : (iblk0 (V1 m ρ) c 0 t) (ix2 p k) = aX m c (ix2 (gb t p) k) := by
  obtain ⟨e0, e1⟩ := idx0 t
  show (V1 m ρ c main_v0 : S4096x1024.Idx → EReal) (((cfg0.win 0).blk t).view.emb (ix2 p k)) = _
  rw [x_eq]
  refine congrArg _ ?_
  funext a; apply Fin.ext
  match a with
  | ⟨0, _⟩ => show win0_0.index t (0 : Fin 2) * 32 + 1 * p.val = (t.val % 128) * 32 + p.val; omega
  | ⟨1, _⟩ => show win0_0.index t (1 : Fin 2) * 1024 + 1 * k.val = k.val; omega

theorem blk1_at (t : Fin cfg0.N) (p : Fin 32) (q : Fin 128) (s : Fin 16) : (iblk0 (V1 m ρ) c 1 t) (ix3 p q s) = aH m c (ix3 (gb t p) (gd t q) s) := by
  obtain ⟨e0, e1, e2⟩ := idx1 t
  show (V1 m ρ c main_arg1 : S4096x1024x16.Idx → EReal) (((cfg0.win 1).blk t).view.emb (ix3 p q s)) = _
  rw [h_eq]
  refine congrArg _ ?_
  funext a; apply Fin.ext
  match a with
  | ⟨0, _⟩ => show win0_1.index t (0 : Fin 3) * 32 + 1 * p.val = (t.val % 128) * 32 + p.val; omega
  | ⟨1, _⟩ => show win0_1.index t (1 : Fin 3) * 128 + 1 * q.val = (t.val / 128) * 128 + q.val; omega
  | ⟨2, _⟩ => show win0_1.index t (2 : Fin 3) * 16 + 1 * s.val = s.val; omega

theorem blk2_at (t : Fin cfg0.N) (q : Fin 128) (k : Fin 1024) : (iblk0 (V1 m ρ) c 2 t) (ix2 q k) = aWin m c (ix2 (gd t q) k) := by
  obtain ⟨e0, e1⟩ := idx2 t
  show (V1 m ρ c main_v1 : S1024x1024.Idx → EReal) (((cfg0.win 2).blk t).view.emb (ix2 q k)) = _
  rw [win_eq]
  refine congrArg _ ?_
  funext a; apply Fin.ext
  match a with
  | ⟨0, _⟩ => show win0_2.index t (0 : Fin 2) * 128 + 1 * q.val = (t.val / 128) * 128 + q.val; omega
  | ⟨1, _⟩ => show win0_2.index t (1 : Fin 2) * 1024 + 1 * k.val = k.val; omega

theorem blk3_at (t : Fin cfg0.N) (q : Fin 128) (k : Fin 1024) : (iblk0 (V1 m ρ) c 3 t) (ix2 q k) = aWdt m c (ix2 (gd t q) k) := by
  obtain ⟨e0, e1⟩ := idx3 t
  show (V1 m ρ c main_v2 : S1024x1024.Idx → EReal) (((cfg0.win 3).blk t).view.emb (ix2 q k)) = _
  rw [wdt_eq]
  refine congrArg _ ?_
  funext a; apply Fin.ext
  match a with
  | ⟨0, _⟩ => show win0_3.index t (0 : Fin 2) * 128 + 1 * q.val = (t.val / 128) * 128 + q.val; omega
  | ⟨1, _⟩ => show win0_3.index t (1 : Fin 2) * 1024 + 1 * k.val = k.val; omega

theorem blk4_at (t : Fin cfg0.N) (q : Fin 128) : (iblk0 (V1 m ρ) c 4 t) (ix2 (0 : Fin 1) q) = aBdt m c (ix1 (gd t q)) := by
  obtain ⟨e0, e1⟩ := idx4 t
  show (V1 m ρ c main_v12 : S1x1024.Idx → EReal) (((cfg0.win 4).blk t).view.emb (ix2 (0 : Fin 1) q)) = _
  have e : ((cfg0.win 4).blk t).view.emb (ix2 (0 : Fin 1) q) = ix2 (0 : Fin 1) (gd t q) := by
    funext a; apply Fin.ext
    match a with
    | ⟨0, _⟩ => show win0_4.index t (0 : Fin 2) * 1 + 1 * 0 = 0; omega
    | ⟨1, _⟩ => show win0_4.index t (1 : Fin 2) * 128 + 1 * q.val = (t.val / 128) * 128 + q.val; omega
  rw [e]
  exact bdt_at m ρ c (gd t q)

theorem blk8_at (t : Fin cfg0.N) (q : Fin 128) : (iblk0 (V1 m ρ) c 8 t) (ix2 (0 : Fin 1) q) = aD m c (ix1 (gd t q)) := by
  obtain ⟨e0, e1⟩ := idx8 t
  show (V1 m ρ c main_v13 : S1x1024.Idx → EReal) (((cfg0.win 8).blk t).view.emb (ix2 (0 : Fin 1) q)) = _
  have e : ((cfg0.win 8).blk t).view.emb (ix2 (0 : Fin 1) q) = ix2 (0 : Fin 1) (gd t q) := by
    funext a; apply Fin.ext
    match a with
    | ⟨0, _⟩ => show win0_8.index t (0 : Fin 2) * 1 + 1 * 0 = 0; omega
    | ⟨1, _⟩ => show win0_8.index t (1 : Fin 2) * 128 + 1 * q.val = (t.val / 128) * 128 + q.val; omega
  rw [e]
  exact dpar_at m ρ c (gd t q)

/-- The global row, among the 16384 of a regrouped half, of the tile's row `q · 16 + s`. -/
def grow (t : Fin cfg0.N) (q : Fin 128) (s : Fin 16) : Fin 16384 :=
  ⟨(t.val / 128) * 2048 + (q.val * 16 + s.val), by have := tlt t; have := q.isLt; have := s.isLt; omega⟩

theorem grow_val (t : Fin cfg0.N) (q : Fin 128) (s : Fin 16) : (grow t q s).val = (gd t q).val * 16 + s.val := by
  show (t.val / 128) * 2048 + (q.val * 16 + s.val) = ((t.val / 128) * 128 + q.val) * 16 + s.val
  omega

theorem blk5_at (t : Fin cfg0.N) (q : Fin 128) (s : Fin 16) (k : Fin 1024) :
    (iblk0 (V1 m ρ) c 5 t) (ix2 (row16 q s) k) = aWbc m c (ix2 (bcRow (gd t q) 0 s) k) := by
  obtain ⟨e0, e1⟩ := idx5 t
  show (V1 m ρ c main_v10 : S16384x1024.Idx → EReal) (((cfg0.win 5).blk t).view.emb (ix2 (row16 q s) k)) = _
  have e : ((cfg0.win 5).blk t).view.emb (ix2 (row16 q s) k) = ix2 (grow t q s) k := by
    funext a; apply Fin.ext
    match a with
    | ⟨0, _⟩ => show win0_5.index t (0 : Fin 2) * 2048 + 1 * (q.val * 16 + s.val) = (t.val / 128) * 2048 + (q.val * 16 + s.val); omega
    | ⟨1, _⟩ => show win0_5.index t (1 : Fin 2) * 1024 + 1 * k.val = k.val; omega
  rw [e]
  exact bp_at m ρ c (gd t q) s k (grow t q s) (grow_val t q s)

theorem blk6_at (t : Fin cfg0.N) (q : Fin 128) (s : Fin 16) (k : Fin 1024) :
    (iblk0 (V1 m ρ) c 6 t) (ix2 (row16 q s) k) = aWbc m c (ix2 (bcRow (gd t q) 1 s) k) := by
  obtain ⟨e0, e1⟩ := idx6 t
  show (V1 m ρ c main_v11 : S16384x1024.Idx → EReal) (((cfg0.win 6).blk t).view.emb (ix2 (row16 q s) k)) = _
  have e : ((cfg0.win 6).blk t).view.emb (ix2 (row16 q s) k) = ix2 (grow t q s) k := by
    funext a; apply Fin.ext
    match a with
    | ⟨0, _⟩ => show win0_6.index t (0 : Fin 2) * 2048 + 1 * (q.val * 16 + s.val) = (t.val / 128) * 2048 + (q.val * 16 + s.val); omega
    | ⟨1, _⟩ => show win0_6.index t (1 : Fin 2) * 1024 + 1 * k.val = k.val; omega
  rw [e]
  exact cp_at m ρ c (gd t q) s k (grow t q s) (grow_val t q s)

theorem blk7_at (t : Fin cfg0.N) (q : Fin 128) (s : Fin 16) : (iblk0 (V1 m ρ) c 7 t) (ix2 q s) = aAlog m c (ix2 (gd t q) s) := by
  obtain ⟨e0, e1⟩ := idx7 t
  show (V1 m ρ c main_arg6 : S1024x16.Idx → EReal) (((cfg0.win 7).blk t).view.emb (ix2 q s)) = _
  rw [alog_eq]
  refine congrArg _ ?_
  funext a; apply Fin.ext
  match a with
  | ⟨0, _⟩ => show win0_7.index t (0 : Fin 2) * 128 + 1 * q.val = (t.val / 128) * 128 + q.val; omega
  | ⟨1, _⟩ => show win0_7.index t (1 : Fin 2) * 16 + 1 * s.val = s.val; omega

/-! ## A tile's values are the whole-array functions at the global coordinates -/

theorem u_tile (t : Fin cfg0.N) (p : Fin 32) (q : Fin 128) :
    (k0_pay4 (iblk0 (V1 m ρ) c 0 t) (iblk0 (V1 m ρ) c 2 t)) (ix2 p q) = dotRow (aX m c) (aWin m c) (gb t p) (gd t q) :=
  (pay4_at (iblk0 (V1 m ρ) c 0 t) (iblk0 (V1 m ρ) c 2 t) p q).trans
    (dotRow_congr (fun k => blk0_at m ρ c t p k) (fun k => blk2_at m ρ c t q k))

theorem delta_tile (t : Fin cfg0.N) (p : Fin 32) (q : Fin 128) :
    (k0_pay5 (iblk0 (V1 m ρ) c 0 t) (iblk0 (V1 m ρ) c 3 t) (iblk0 (V1 m ρ) c 4 t)) (ix2 p q) = delta (aX m c) (aWdt m c) (aBdt m c) (gb t p) (gd t q) :=
  (pay5_at (iblk0 (V1 m ρ) c 0 t) (iblk0 (V1 m ρ) c 3 t) (iblk0 (V1 m ρ) c 4 t) p q).trans
    (congrArg softplus (congrArg₂ (· + ·)
      (dotRow_congr (fun k => blk0_at m ρ c t p k) (fun k => blk3_at m ρ c t q k)) (blk4_at m ρ c t q)))

theorem b_tile (t : Fin cfg0.N) (p : Fin 32) (q : Fin 128) (s : Fin 16) :
    (k0_pay6 (iblk0 (V1 m ρ) c 0 t) (iblk0 (V1 m ρ) c 5 t)) (ix3 p q s) = dotRow (aX m c) (aWbc m c) (gb t p) (bcRow (gd t q) 0 s) :=
  (pay6_at (iblk0 (V1 m ρ) c 0 t) (iblk0 (V1 m ρ) c 5 t) p q s).trans
    (dotRow_congr (fun k => blk0_at m ρ c t p k) (fun k => blk5_at m ρ c t q s k))

theorem c_tile (t : Fin cfg0.N) (p : Fin 32) (q : Fin 128) (s : Fin 16) :
    (k0_pay7 (iblk0 (V1 m ρ) c 0 t) (iblk0 (V1 m ρ) c 6 t)) (ix3 p q s) = dotRow (aX m c) (aWbc m c) (gb t p) (bcRow (gd t q) 1 s) :=
  (pay7_at (iblk0 (V1 m ρ) c 0 t) (iblk0 (V1 m ρ) c 6 t) p q s).trans
    (dotRow_congr (fun k => blk0_at m ρ c t p k) (fun k => blk6_at m ρ c t q s k))

/-- One state entry of a tile is the new state at the global coordinates. -/
theorem hnew_tile (t : Fin cfg0.N) (p : Fin 32) (q : Fin 128) (s : Fin 16) :
    k0_pay1 (k0_pay4 (iblk0 (V1 m ρ) c 0 t) (iblk0 (V1 m ρ) c 2 t)) (k0_pay5 (iblk0 (V1 m ρ) c 0 t) (iblk0 (V1 m ρ) c 3 t) (iblk0 (V1 m ρ) c 4 t)) (k0_pay6 (iblk0 (V1 m ρ) c 0 t) (iblk0 (V1 m ρ) c 5 t)) (iblk0 (V1 m ρ) c 7 t) (iblk0 (V1 m ρ) c 1 t) (ix3 p q s)
      = hnew (aX m c) (aH m c) (aWin m c) (aWdt m c) (aBdt m c) (aWbc m c) (aAlog m c) (gb t p) (gd t q) s := by
  refine (pay1_at (k0_pay4 (iblk0 (V1 m ρ) c 0 t) (iblk0 (V1 m ρ) c 2 t)) (k0_pay5 (iblk0 (V1 m ρ) c 0 t) (iblk0 (V1 m ρ) c 3 t) (iblk0 (V1 m ρ) c 4 t)) (k0_pay6 (iblk0 (V1 m ρ) c 0 t) (iblk0 (V1 m ρ) c 5 t)) (iblk0 (V1 m ρ) c 7 t) (iblk0 (V1 m ρ) c 1 t) p q s).trans ?_
  unfold hnew
  rw [delta_tile m ρ c t p q, blk7_at m ρ c t q s, blk1_at m ρ c t p q s, b_tile m ρ c t p q s, u_tile m ρ c t p q]

/-- The read-out of a tile is the read-out at the global coordinates. -/
theorem y_tile (t : Fin cfg0.N) (p : Fin 32) (q : Fin 128) :
    k0_pay2 (k0_pay4 (iblk0 (V1 m ρ) c 0 t) (iblk0 (V1 m ρ) c 2 t)) (k0_pay5 (iblk0 (V1 m ρ) c 0 t) (iblk0 (V1 m ρ) c 3 t) (iblk0 (V1 m ρ) c 4 t)) (k0_pay6 (iblk0 (V1 m ρ) c 0 t) (iblk0 (V1 m ρ) c 5 t)) (k0_pay7 (iblk0 (V1 m ρ) c 0 t) (iblk0 (V1 m ρ) c 6 t)) (iblk0 (V1 m ρ) c 7 t) (iblk0 (V1 m ρ) c 1 t) (iblk0 (V1 m ρ) c 8 t) (ix2 p q)
      = yval (aX m c) (aH m c) (aWin m c) (aWdt m c) (aBdt m c) (aWbc m c) (aAlog m c) (aD m c) (gb t p) (gd t q) := by
  refine (pay2_at (k0_pay4 (iblk0 (V1 m ρ) c 0 t) (iblk0 (V1 m ρ) c 2 t)) (k0_pay5 (iblk0 (V1 m ρ) c 0 t) (iblk0 (V1 m ρ) c 3 t) (iblk0 (V1 m ρ) c 4 t)) (k0_pay6 (iblk0 (V1 m ρ) c 0 t) (iblk0 (V1 m ρ) c 5 t)) (k0_pay7 (iblk0 (V1 m ρ) c 0 t) (iblk0 (V1 m ρ) c 6 t)) (iblk0 (V1 m ρ) c 7 t) (iblk0 (V1 m ρ) c 1 t) (iblk0 (V1 m ρ) c 8 t) p q).trans ?_
  unfold yval
  rw [blk8_at m ρ c t q, u_tile m ρ c t p q]
  refine congrArg (· + _) (congrArg (z0 + ·) (Finset.sum_congr rfl fun s _ => ?_))
  rw [hnew_tile m ρ c t p q s, c_tile m ρ c t p q s]

end Cert.KernelIdeal.Stage1

end
-- ==== Proof.Region0Arr.lean ====
/-
  The first stage's two output arrays after the run.

  What point `t` writes back is the restriction, to `t`'s block, of one whole-array function: the new state for the
  state window, the read-out for the read-out window.  Every index of either array lies in the block of the point
  `(i₁ / 128) · 128 + i₀ / 32`, so after the last point both arrays hold those functions everywhere.
-/
import proofs.«118145_j8538394984487_2_alg».proof.Proof.Region0

set_option maxRecDepth 16384

noncomputable section

open scoped BigOperators

namespace Cert.KernelIdeal.Stage1

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Tile Cert.KernelIdeal.Entry SsmSpec

variable (m : (ℓ : Loc nD τ sig) → Buf (Elt Ideal) ℓ) (ρ : Dev nD → PrngReg) (c : Dev nD)

/-- The tile lemmas at an index of the block not yet split into coordinates. -/
theorem hnew_tile' (t : Fin cfg0.N) (j : S32x128x16.Idx) :
    k0_pay1 (k0_pay4 (iblk0 (V1 m ρ) c 0 t) (iblk0 (V1 m ρ) c 2 t)) (k0_pay5 (iblk0 (V1 m ρ) c 0 t) (iblk0 (V1 m ρ) c 3 t) (iblk0 (V1 m ρ) c 4 t)) (k0_pay6 (iblk0 (V1 m ρ) c 0 t) (iblk0 (V1 m ρ) c 5 t)) (iblk0 (V1 m ρ) c 7 t) (iblk0 (V1 m ρ) c 1 t) j
      = hnew (aX m c) (aH m c) (aWin m c) (aWdt m c) (aBdt m c) (aWbc m c) (aAlog m c) (gb t (j 0)) (gd t (j 1)) (j 2) :=
  (congrArg (k0_pay1 (k0_pay4 (iblk0 (V1 m ρ) c 0 t) (iblk0 (V1 m ρ) c 2 t)) (k0_pay5 (iblk0 (V1 m ρ) c 0 t) (iblk0 (V1 m ρ) c 3 t) (iblk0 (V1 m ρ) c 4 t)) (k0_pay6 (iblk0 (V1 m ρ) c 0 t) (iblk0 (V1 m ρ) c 5 t)) (iblk0 (V1 m ρ) c 7 t) (iblk0 (V1 m ρ) c 1 t)) (eq_ix3 j)).trans
    (hnew_tile m ρ c t (j 0) (j 1) (j 2))

theorem y_tile' (t : Fin cfg0.N) (j : S32x128.Idx) :
    k0_pay2 (k0_pay4 (iblk0 (V1 m ρ) c 0 t) (iblk0 (V1 m ρ) c 2 t)) (k0_pay5 (iblk0 (V1 m ρ) c 0 t) (iblk0 (V1 m ρ) c 3 t) (iblk0 (V1 m ρ) c 4 t)) (k0_pay6 (iblk0 (V1 m ρ) c 0 t) (iblk0 (V1 m ρ) c 5 t)) (k0_pay7 (iblk0 (V1 m ρ) c 0 t) (iblk0 (V1 m ρ) c 6 t)) (iblk0 (V1 m ρ) c 7 t) (iblk0 (V1 m ρ) c 1 t) (iblk0 (V1 m ρ) c 8 t) j
      = yval (aX m c) (aH m c) (aWin m c) (aWdt m c) (aBdt m c) (aWbc m c) (aAlog m c) (aD m c) (gb t (j 0)) (gd t (j 1)) :=
  (congrArg (k0_pay2 (k0_pay4 (iblk0 (V1 m ρ) c 0 t) (iblk0 (V1 m ρ) c 2 t)) (k0_pay5 (iblk0 (V1 m ρ) c 0 t) (iblk0 (V1 m ρ) c 3 t) (iblk0 (V1 m ρ) c 4 t)) (k0_pay6 (iblk0 (V1 m ρ) c 0 t) (iblk0 (V1 m ρ) c 5 t)) (k0_pay7 (iblk0 (V1 m ρ) c 0 t) (iblk0 (V1 m ρ) c 6 t)) (iblk0 (V1 m ρ) c 7 t) (iblk0 (V1 m ρ) c 1 t) (iblk0 (V1 m ρ) c 8 t)) (eq_ix2 j)).trans
    (y_tile m ρ c t (j 0) (j 1))

/-! ## The new-state array -/

/-- What point `t` writes back to the state window is block `t` of the new-state array. -/
theorem flushed10_eq (t : Fin cfg0.N) :
    (dat0 (V1 m ρ) c).flushed 10 t = ((cfg0.win 10).blk t).view.read (Elt Ideal) (hnewArr (aX m c) (aH m c) (aWin m c) (aWdt m c) (aBdt m c) (aWbc m c) (aAlog m c)) := by
  show (cfg0.win 10).cut (grid0.coords t) ((dat0 (V1 m ρ) c).after 10 t) = _
  rw [after0_10]
  unfold out0_10
  rw [View.canon_unit_zero hz3]
  simp only [View.ld_unit_zero (S := S32x1024) hz2, View.ld_unit_zero (S := S128x1024) hz2, View.ld_unit_zero (S := S1x128) hz2, View.ld_unit_zero (S := S2048x1024) hz2, View.ld_unit_zero (S := S128x16) hz2, View.ld_unit_zero (S := S32x128x16) hz3]
  funext j
  refine (hnew_tile' m ρ c t j).trans ?_
  obtain ⟨e0, e1, e2⟩ := idx10 t
  have h0 : ((cfg0.win 10).blk t).view.emb j 0 = gb t (j 0) :=
    Fin.ext (by show win0_10.index t (0 : Fin 3) * 32 + 1 * (j 0).val = (t.val % 128) * 32 + (j 0).val; omega)
  have h1 : ((cfg0.win 10).blk t).view.emb j 1 = gd t (j 1) :=
    Fin.ext (by show win0_10.index t (1 : Fin 3) * 128 + 1 * (j 1).val = (t.val / 128) * 128 + (j 1).val; omega)
  have h2 : ((cfg0.win 10).blk t).view.emb j 2 = j 2 :=
    Fin.ext (by show win0_10.index t (2 : Fin 3) * 16 + 1 * (j 2).val = (j 2).val; omega)
  show _ = hnew (aX m c) (aH m c) (aWin m c) (aWdt m c) (aBdt m c) (aWbc m c) (aAlog m c) (((cfg0.win 10).blk t).view.emb j 0) (((cfg0.win 10).blk t).view.emb j 1) (((cfg0.win 10).blk t).view.emb j 2)
  rw [h0, h1, h2]

theorem mem_blk10 (t : Fin cfg0.N) (i : S4096x1024x16.Idx) :
    i ∈ ((cfg0.win 10).blk t).view.set ↔ ∀ a : Fin 3, win0_10.index t a * S32x128x16.size a ≤ (i a).val ∧ (i a).val < win0_10.index t a * S32x128x16.size a + S32x128x16.size a := by
  show i ∈ ((View.whole main_v14_1).slice (win0_10.rect t)).set ↔ _
  rw [View.set_slice_whole, Rect.mem_set_unit]
  exact Iff.rfl

/-- The point whose block holds batch row `r` and feature `d`. -/
def pointOf (r d : ℕ) (hr : r < 4096) (hd : d < 1024) : Fin cfg0.N :=
  ⟨(d / 128) * 128 + r / 32, lt_of_lt_of_eq (by omega : (d / 128) * 128 + r / 32 < 1024) N_0.symm⟩

theorem cover10 (i : S4096x1024x16.Idx) :
    ∃ t : Fin cfg0.N, (cfg0.win 10).flush t = true ∧ i ∈ ((cfg0.win 10).blk t).view.set := by
  have hi0 : (i 0).val < 4096 := (i 0).isLt
  have hi1 : (i 1).val < 1024 := (i 1).isLt
  have hi2 : (i 2).val < 16 := (i 2).isLt
  refine ⟨pointOf (i 0).val (i 1).val hi0 hi1, flush0_10 _, ?_⟩
  rw [mem_blk10]
  obtain ⟨e0, e1, e2⟩ := idx10 (pointOf (i 0).val (i 1).val hi0 hi1)
  have tv : (pointOf (i 0).val (i 1).val hi0 hi1).val = ((i 1).val / 128) * 128 + (i 0).val / 32 := rfl
  intro a
  match a with
  | ⟨0, _⟩ =>
    show win0_10.index (pointOf (i 0).val (i 1).val hi0 hi1) (0 : Fin 3) * 32 ≤ (i 0).val ∧ (i 0).val < win0_10.index (pointOf (i 0).val (i 1).val hi0 hi1) (0 : Fin 3) * 32 + 32
    omega
  | ⟨1, _⟩ =>
    show win0_10.index (pointOf (i 0).val (i 1).val hi0 hi1) (1 : Fin 3) * 128 ≤ (i 1).val ∧ (i 1).val < win0_10.index (pointOf (i 0).val (i 1).val hi0 hi1) (1 : Fin 3) * 128 + 128
    omega
  | ⟨2, _⟩ =>
    show win0_10.index (pointOf (i 0).val (i 1).val hi0 hi1) (2 : Fin 3) * 16 ≤ (i 2).val ∧ (i 2).val < win0_10.index (pointOf (i 0).val (i 1).val hi0 hi1) (2 : Fin 3) * 16 + 16
    omega

/-- After the run the state window's array is the new-state array. -/
theorem hnew_final : (dat0 (V1 m ρ) c).arrAt 10 cfg0.N = hnewArr (aX m c) (aH m c) (aWin m c) (aWdt m c) (aBdt m c) (aWbc m c) (aAlog m c) :=
  (dat0 (V1 m ρ) c).arrAt_eq_of_cover 10 (hnewArr (aX m c) (aH m c) (aWin m c) (aWdt m c) (aBdt m c) (aWbc m c) (aAlog m c)) (fun t _ => flushed10_eq m ρ c t) cover10

/-! ## The read-out array -/

theorem flushed9_eq (t : Fin cfg0.N) :
    (dat0 (V1 m ρ) c).flushed 9 t = ((cfg0.win 9).blk t).view.read (Elt Ideal) (yArr (aX m c) (aH m c) (aWin m c) (aWdt m c) (aBdt m c) (aWbc m c) (aAlog m c) (aD m c)) := by
  show (cfg0.win 9).cut (grid0.coords t) ((dat0 (V1 m ρ) c).after 9 t) = _
  rw [after0_9]
  unfold out0_9
  rw [View.canon_unit_zero hz2]
  simp only [View.ld_unit_zero (S := S32x1024) hz2, View.ld_unit_zero (S := S128x1024) hz2, View.ld_unit_zero (S := S1x128) hz2, View.ld_unit_zero (S := S2048x1024) hz2, View.ld_unit_zero (S := S128x16) hz2, View.ld_unit_zero (S := S32x128x16) hz3]
  funext j
  refine (y_tile' m ρ c t j).trans ?_
  obtain ⟨e0, e1⟩ := idx9 t
  have h0 : ((cfg0.win 9).blk t).view.emb j 0 = gb t (j 0) :=
    Fin.ext (by show win0_9.index t (0 : Fin 2) * 32 + 1 * (j 0).val = (t.val % 128) * 32 + (j 0).val; omega)
  have h1 : ((cfg0.win 9).blk t).view.emb j 1 = gd t (j 1) :=
    Fin.ext (by show win0_9.index t (1 : Fin 2) * 128 + 1 * (j 1).val = (t.val / 128) * 128 + (j 1).val; omega)
  show _ = yval (aX m c) (aH m c) (aWin m c) (aWdt m c) (aBdt m c) (aWbc m c) (aAlog m c) (aD m c) (((cfg0.win 9).blk t).view.emb j 0) (((cfg0.win 9).blk t).view.emb j 1)
  rw [h0, h1]

theorem mem_blk9 (t : Fin cfg0.N) (i : S4096x1024.Idx) :
    i ∈ ((cfg0.win 9).blk t).view.set ↔ ∀ a : Fin 2, win0_9.index t a * S32x128.size a ≤ (i a).val ∧ (i a).val < win0_9.index t a * S32x128.size a + S32x128.size a := by
  show i ∈ ((View.whole main_v14_0).slice (win0_9.rect t)).set ↔ _
  rw [View.set_slice_whole, Rect.mem_set_unit]
  exact Iff.rfl

theorem cover9 (i : S4096x1024.Idx) :
    ∃ t : Fin cfg0.N, (cfg0.win 9).flush t = true ∧ i ∈ ((cfg0.win 9).blk t).view.set := by
  have hi0 : (i 0).val < 4096 := (i 0).isLt
  have hi1 : (i 1).val < 1024 := (i 1).isLt
  refine ⟨pointOf (i 0).val (i 1).val hi0 hi1, flush0_9 _, ?_⟩
  rw [mem_blk9]
  obtain ⟨e0, e1⟩ := idx9 (pointOf (i 0).val (i 1).val hi0 hi1)
  have tv : (pointOf (i 0).val (i 1).val hi0 hi1).val = ((i 1).val / 128) * 128 + (i 0).val / 32 := rfl
  intro a
  match a with
  | ⟨0, _⟩ =>
    show win0_9.index (pointOf (i 0).val (i 1).val hi0 hi1) (0 : Fin 2) * 32 ≤ (i 0).val ∧ (i 0).val < win0_9.index (pointOf (i 0).val (i 1).val hi0 hi1) (0 : Fin 2) * 32 + 32
    omega
  | ⟨1, _⟩ =>
    show win0_9.index (pointOf (i 0).val (i 1).val hi0 hi1) (1 : Fin 2) * 128 ≤ (i 1).val ∧ (i 1).val < win0_9.index (pointOf (i 0).val (i 1).val hi0 hi1) (1 : Fin 2) * 128 + 128
    omega

/-- After the run the read-out window's array is the read-out array. -/
theorem y_final : (dat0 (V1 m ρ) c).arrAt 9 cfg0.N = yArr (aX m c) (aH m c) (aWin m c) (aWdt m c) (aBdt m c) (aWbc m c) (aAlog m c) (aD m c) :=
  (dat0 (V1 m ρ) c).arrAt_eq_of_cover 9 (yArr (aX m c) (aH m c) (aWin m c) (aWdt m c) (aBdt m c) (aWbc m c) (aAlog m c) (aD m c)) (fun t _ => flushed9_eq m ρ c t) cover9

end Cert.KernelIdeal.Stage1

end
-- ==== Proof.Region1.lean ====
/-
  The second stage, from tiles to the output array.

  The grid has 8 points; point `t` works on batch rows `t · 512 … t · 512 + 511`, against the whole output weight and
  bias.  The read-out array it reads is what the first stage left.  An output tile's entry `(p, j)` is the gated
  read-out row `t · 512 + p` against row `j` of the output weight, plus the bias; the 8 blocks tile the output array.
-/
import proofs.«118145_j8538394984487_2_alg».proof.Proof.Region0Arr

set_option maxRecDepth 16384

noncomputable section

open scoped BigOperators

namespace Cert.KernelIdeal.Stage2

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Tile Cert.KernelIdeal.Entry Cert.KernelIdeal.Stage1 SsmSpec

theorem tlt1 (t : Fin cfg1.N) : t.val < 8 := lt_of_lt_of_eq t.isLt N_1

theorem jdx0 : ∀ t : Fin cfg1.N, win1_0.index t (0 : Fin 2) = t.val ∧ win1_0.index t (1 : Fin 2) = 0 :=
  (by decide +kernel : ∀ t : Fin grid1.N, _)
theorem jdx1 : ∀ t : Fin cfg1.N, win1_1.index t (0 : Fin 2) = 0 ∧ win1_1.index t (1 : Fin 2) = 0 :=
  (by decide +kernel : ∀ t : Fin grid1.N, _)
theorem jdx2 : ∀ t : Fin cfg1.N, win1_2.index t (0 : Fin 2) = 0 ∧ win1_2.index t (1 : Fin 2) = 0 :=
  (by decide +kernel : ∀ t : Fin grid1.N, _)
theorem jdx3 : ∀ t : Fin cfg1.N, win1_3.index t (0 : Fin 2) = t.val ∧ win1_3.index t (1 : Fin 2) = 0 :=
  (by decide +kernel : ∀ t : Fin grid1.N, _)

/-- The global batch row of tile row `p` at point `t`. -/
def gr (t : Fin cfg1.N) (p : Fin 512) : Fin 4096 := ⟨t.val * 512 + p.val, by have := tlt1 t; have := p.isLt; omega⟩

variable (m : (ℓ : Loc nD τ sig) → Buf (Elt Ideal) ℓ) (ρ : Dev nD → PrngReg) (c : Dev nD)

abbrev aWout : A2 1024 1024 := m ((c : Thread nD τ).loc main_arg8)
abbrev aBout : A1 1024 := m ((c : Thread nD τ).loc main_arg9)

theorem cblk0_at (t : Fin cfg1.N) (p : Fin 512) (k : Fin 1024) : (iblk1 (V3 m ρ) c 0 t) (ix2 p k) = (yArr (aX m c) (aH m c) (aWin m c) (aWdt m c) (aBdt m c) (aWbc m c) (aAlog m c) (aD m c)) (ix2 (gr t p) k) := by
  obtain ⟨e0, e1⟩ := jdx0 t
  show (V3 m ρ c main_v14_0 : S4096x1024.Idx → EReal) (((cfg1.win 0).blk t).view.emb (ix2 p k)) = _
  rw [y_eq, y_final]
  refine congrArg _ ?_
  funext a; apply Fin.ext
  match a with
  | ⟨0, _⟩ => show win1_0.index t (0 : Fin 2) * 512 + 1 * p.val = t.val * 512 + p.val; omega
  | ⟨1, _⟩ => show win1_0.index t (1 : Fin 2) * 1024 + 1 * k.val = k.val; omega

theorem cblk1_at (t : Fin cfg1.N) (j : Fin 1024) (k : Fin 1024) : (iblk1 (V3 m ρ) c 1 t) (ix2 j k) = aWout m c (ix2 j k) := by
  obtain ⟨e0, e1⟩ := jdx1 t
  show (V3 m ρ c main_v15 : S1024x1024.Idx → EReal) (((cfg1.win 1).blk t).view.emb (ix2 j k)) = _
  rw [wout_eq]
  refine congrArg _ ?_
  funext a; apply Fin.ext
  match a with
  | ⟨0, _⟩ => show win1_1.index t (0 : Fin 2) * 1024 + 1 * j.val = j.val; omega
  | ⟨1, _⟩ => show win1_1.index t (1 : Fin 2) * 1024 + 1 * k.val = k.val; omega

theorem cblk2_at (t : Fin cfg1.N) (j : Fin 1024) : (iblk1 (V3 m ρ) c 2 t) (ix2 (0 : Fin 1) j) = aBout m c (ix1 j) := by
  obtain ⟨e0, e1⟩ := jdx2 t
  show (V3 m ρ c main_v16 : S1x1024.Idx → EReal) (((cfg1.win 2).blk t).view.emb (ix2 (0 : Fin 1) j)) = _
  have e : ((cfg1.win 2).blk t).view.emb (ix2 (0 : Fin 1) j) = ix2 (0 : Fin 1) j := by
    funext a; apply Fin.ext
    match a with
    | ⟨0, _⟩ => show win1_2.index t (0 : Fin 2) * 1 + 1 * 0 = 0; omega
    | ⟨1, _⟩ => show win1_2.index t (1 : Fin 2) * 1024 + 1 * j.val = j.val; omega
  rw [e]
  exact bout_at m ρ c j

/-- An output tile's entry is the output at the global row. -/
theorem out_tile (t : Fin cfg1.N) (p : Fin 512) (j : Fin 1024) :
    k1_pay1 (iblk1 (V3 m ρ) c 0 t) (iblk1 (V3 m ρ) c 1 t) (iblk1 (V3 m ρ) c 2 t) (ix2 p j)
      = outOf (yArr (aX m c) (aH m c) (aWin m c) (aWdt m c) (aBdt m c) (aWbc m c) (aAlog m c) (aD m c)) (aWout m c) (aBout m c (ix1 j)) (gr t p) j :=
  (pay_out_at (iblk1 (V3 m ρ) c 0 t) (iblk1 (V3 m ρ) c 1 t) (iblk1 (V3 m ρ) c 2 t) p j).trans
    (outOf_congr (fun k => cblk0_at m ρ c t p k) (fun k => cblk1_at m ρ c t j k) (cblk2_at m ρ c t j))

theorem out_tile' (t : Fin cfg1.N) (j : S512x1024.Idx) :
    k1_pay1 (iblk1 (V3 m ρ) c 0 t) (iblk1 (V3 m ρ) c 1 t) (iblk1 (V3 m ρ) c 2 t) j
      = outOf (yArr (aX m c) (aH m c) (aWin m c) (aWdt m c) (aBdt m c) (aWbc m c) (aAlog m c) (aD m c)) (aWout m c) (aBout m c (ix1 (j 1))) (gr t (j 0)) (j 1) :=
  (congrArg (k1_pay1 (iblk1 (V3 m ρ) c 0 t) (iblk1 (V3 m ρ) c 1 t) (iblk1 (V3 m ρ) c 2 t)) (eq_ix2 j)).trans (out_tile m ρ c t (j 0) (j 1))

theorem flushed3_eq (t : Fin cfg1.N) :
    (dat1 (V3 m ρ) c).flushed 3 t
      = ((cfg1.win 3).blk t).view.read (Elt Ideal) (outArr (aX m c) (aH m c) (aWin m c) (aWdt m c) (aBdt m c) (aWbc m c) (aAlog m c) (aD m c) (aWout m c) (aBout m c)) := by
  show (cfg1.win 3).cut (grid1.coords t) ((dat1 (V3 m ρ) c).after 3 t) = _
  rw [after1_3]
  unfold out1_3
  rw [View.canon_unit_zero hz2]
  simp only [View.ld_unit_zero (S := S512x1024) hz2, View.ld_unit_zero (S := S1024x1024) hz2, View.ld_unit_zero (S := S1x1024) hz2]
  funext j
  refine (out_tile' m ρ c t j).trans ?_
  obtain ⟨e0, e1⟩ := jdx3 t
  have h0 : ((cfg1.win 3).blk t).view.emb j 0 = gr t (j 0) :=
    Fin.ext (by show win1_3.index t (0 : Fin 2) * 512 + 1 * (j 0).val = t.val * 512 + (j 0).val; omega)
  have h1 : ((cfg1.win 3).blk t).view.emb j 1 = j 1 :=
    Fin.ext (by show win1_3.index t (1 : Fin 2) * 1024 + 1 * (j 1).val = (j 1).val; omega)
  show _ = outOf (yArr (aX m c) (aH m c) (aWin m c) (aWdt m c) (aBdt m c) (aWbc m c) (aAlog m c) (aD m c)) (aWout m c) (aBout m c (ix1 (((cfg1.win 3).blk t).view.emb j 1))) (((cfg1.win 3).blk t).view.emb j 0) (((cfg1.win 3).blk t).view.emb j 1)
  rw [h0, h1]

theorem mem_blk3 (t : Fin cfg1.N) (i : S4096x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v17).slice (win1_3.rect t)).set ↔ _
  rw [View.set_slice_whole, Rect.mem_set_unit]
  exact Iff.rfl

def pointOf1 (r : ℕ) (hr : r < 4096) : Fin cfg1.N := ⟨r / 512, lt_of_lt_of_eq (by omega : r / 512 < 8) N_1.symm⟩

theorem cover3 (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  refine ⟨pointOf1 (i 0).val hi0, flush1_3 _, ?_⟩
  rw [mem_blk3]
  obtain ⟨e0, e1⟩ := jdx3 (pointOf1 (i 0).val hi0)
  have tv : (pointOf1 (i 0).val hi0).val = (i 0).val / 512 := rfl
  intro a
  match a with
  | ⟨0, _⟩ =>
    show win1_3.index (pointOf1 (i 0).val hi0) (0 : Fin 2) * 512 ≤ (i 0).val ∧ (i 0).val < win1_3.index (pointOf1 (i 0).val hi0) (0 : Fin 2) * 512 + 512
    omega
  | ⟨1, _⟩ =>
    show win1_3.index (pointOf1 (i 0).val hi0) (1 : Fin 2) * 1024 ≤ (i 1).val ∧ (i 1).val < win1_3.index (pointOf1 (i 0).val hi0) (1 : Fin 2) * 1024 + 1024
    omega

/-- After the run the output window's array is the output array. -/
theorem out_final : (dat1 (V3 m ρ) c).arrAt 3 cfg1.N = outArr (aX m c) (aH m c) (aWin m c) (aWdt m c) (aBdt m c) (aWbc m c) (aAlog m c) (aD m c) (aWout m c) (aBout m c) :=
  (dat1 (V3 m ρ) c).arrAt_eq_of_cover 3 (outArr (aX m c) (aH m c) (aWin m c) (aWdt m c) (aBdt m c) (aWbc m c) (aAlog m c) (aD m c) (aWout m c) (aBout m c)) (fun t _ => flushed3_eq m ρ c t) cover3

end Cert.KernelIdeal.Stage2

end
-- ==== Proof.RefIsSpec.lean ====
/-
  The reference program, read at an index, is the single-step state-space update of `SsmSpec`.

  Every operation of the reference reads its operands at an index (the generated module's `val_…_apply`
  equations); composing them from the results back to the arguments gives, at a batch row `b`, a feature `d`
  and a state coordinate `s`, exactly the expressions of `SsmSpec`:
    * a product with a transposed weight reads the weight's row: `Σₖ x(b,k) · W(d,k)`;
    * the reshape of the combined projection from `[4096, 32768]` to `[4096, 1024, 2, 16]` reads column
      `(d·2 + g)·16 + s` (row-major arithmetic), whose two halves `g = 0, 1` are the input and output projections;
    * the guarded softplus takes its ordinary branch, since no extended real differs from itself;
    * the literal `1.0` of the logistic function is the extended real `1`.
  Nothing here needs the inputs to be finite: the two sides are the same expression.
-/
import proofs.«118145_j8538394984487_2_alg».proof.Proof.Gen.ReferenceIdeal.Read
import proofs.«118145_j8538394984487_2_alg».proof.Proof.SsmSpec
import Idealize.ShloMosaic.Lib.ValueIdx
import Idealize.ShloMosaic.PureOps.Ideal.Laws

noncomputable section

open scoped BigOperators

namespace Cert.ReferenceIdeal.IsSpec

open Cert.ReferenceIdeal Cert.ReferenceIdeal.Read Idealize.ShloMosaic Idealize.ShloMosaic.ValueIdx

/-! ## Scalar facts -/

/-- The literal `1.0` is the extended real `1`. -/
theorem one_f32 : Ideal.ofBits .f32 0x3F800000#32 = (1 : EReal) := by
  simp [Ideal.ofBits, Ideal.ieee, -EReal.coe_mul]
  norm_num

/-! ## Index equations: the reference's composed index functions at coordinates -/

/-- The left operand of a row product is read at `(b, k)`. -/
theorem lidx_v1 (b : Fin 4096) (d : Fin 1024) (k : Fin 1024) : lidx_main_v1 (ix2 b d) k = ix2 b k :=
  funext fun a => Fin.ext (by match a with | ⟨0, _⟩ => rfl | ⟨1, _⟩ => rfl)

/-- The transposed weight at `(k, d)` is the weight at `(d, k)`. -/
theorem ridx_v1 (b : Fin 4096) (d : Fin 1024) (k : Fin 1024) : idx_main_v0 (ridx_main_v1 (ix2 b d) k) = ix2 d k :=
  funext fun a => Fin.ext (by match a with | ⟨0, _⟩ => rfl | ⟨1, _⟩ => rfl)

theorem lidx_v3 (b : Fin 4096) (d : Fin 1024) (k : Fin 1024) : lidx_main_v3 (ix2 b d) k = ix2 b k :=
  funext fun a => Fin.ext (by match a with | ⟨0, _⟩ => rfl | ⟨1, _⟩ => rfl)

theorem ridx_v3 (b : Fin 4096) (d : Fin 1024) (k : Fin 1024) : idx_main_v2 (ridx_main_v3 (ix2 b d) k) = ix2 d k :=
  funext fun a => Fin.ext (by match a with | ⟨0, _⟩ => rfl | ⟨1, _⟩ => rfl)

/-- A bias broadcast along the batch reads the bias at the feature. -/
theorem idx_bias (b : Fin 4096) (d : Fin 1024) : idx_main_v4 (idx_main_v5 (ix2 b d)) = ix1 d :=
  funext fun a => Fin.ext (by match a with | ⟨0, _⟩ => rfl)

theorem idx_D (b : Fin 4096) (d : Fin 1024) : idx_main_v32 (idx_main_v33 (ix2 b d)) = ix1 d :=
  funext fun a => Fin.ext (by match a with | ⟨0, _⟩ => rfl)

theorem idx_bout (b : Fin 4096) (j : Fin 1024) : idx_main_v39 (idx_main_v40 (ix2 b j)) = ix1 j :=
  funext fun a => Fin.ext (by match a with | ⟨0, _⟩ => rfl)

/-- The step size, broadcast along the state axis, is read at `(b, d)`. -/
theorem idx_delta19 (b : Fin 4096) (d : Fin 1024) (s : Fin 16) : idx_main_v8 (idx_main_v19 (ix3 b d s)) = ix2 b d :=
  funext fun a => Fin.ext (by match a with | ⟨0, _⟩ => rfl | ⟨1, _⟩ => rfl)

theorem idx_delta24 (b : Fin 4096) (d : Fin 1024) (s : Fin 16) : idx_main_v8 (idx_main_v24 (ix3 b d s)) = ix2 b d :=
  funext fun a => Fin.ext (by match a with | ⟨0, _⟩ => rfl | ⟨1, _⟩ => rfl)

/-- `u`, broadcast along the state axis, is read at `(b, d)`. -/
theorem idx_u (b : Fin 4096) (d : Fin 1024) (s : Fin 16) : idx_main_v26 (idx_main_v27 (ix3 b d s)) = ix2 b d :=
  funext fun a => Fin.ext (by match a with | ⟨0, _⟩ => rfl | ⟨1, _⟩ => rfl)

/-- The log-decay, broadcast along the batch, is read at `(d, s)`. -/
theorem idx_A (b : Fin 4096) (d : Fin 1024) (s : Fin 16) : idx_main_v17 (idx_main_v20 (ix3 b d s)) = ix2 d s :=
  funext fun a => Fin.ext (by match a with | ⟨0, _⟩ => rfl | ⟨1, _⟩ => rfl)

/-- The sum over the state axis reads `(b, d, k)`. -/
theorem idx_sum (b : Fin 4096) (d : Fin 1024) (k : Fin 16) : idx_main_v31 (ix2 b d) k = ix3 b d k :=
  funext fun a => Fin.ext (by match a with | ⟨0, _⟩ => rfl | ⟨1, _⟩ => rfl | ⟨2, _⟩ => rfl)

theorem lidx_v38 (b : Fin 4096) (j : Fin 1024) (k : Fin 1024) : lidx_main_v38 (ix2 b j) k = ix2 b k :=
  funext fun a => Fin.ext (by match a with | ⟨0, _⟩ => rfl | ⟨1, _⟩ => rfl)

theorem ridx_v38 (b : Fin 4096) (j : Fin 1024) (k : Fin 1024) : idx_main_v37 (ridx_main_v38 (ix2 b j) k) = ix2 j k :=
  funext fun a => Fin.ext (by match a with | ⟨0, _⟩ => rfl | ⟨1, _⟩ => rfl)

/-- The input half of the combined projection: element `(b, d, s)` of the reshaped and sliced product sits in
    row `b` of the `[4096, 32768]` product. -/
theorem lidx_B (b : Fin 4096) (d : Fin 1024) (s : Fin 16) (k : Fin 1024) :
    lidx_main_v10 (idx_main_v11 (idx_main_v12 (idx_main_v13 (ix3 b d s)))) k = ix2 b k :=
  funext fun a => Fin.ext (by
    match a with
    | ⟨0, _⟩ =>
      have hb := b.isLt; have hd := d.isLt; have hs := s.isLt
      show (((((b.val * 1024 + d.val) * 16 + s.val) / 16384 * 1024 + ((b.val * 1024 + d.val) * 16 + s.val) / 16 % 1024) * 2 + 0) * 16
        + ((b.val * 1024 + d.val) * 16 + s.val) % 16) / 32768 = b.val
      omega
    | ⟨1, _⟩ => rfl)

/-- … and in column `(d·2 + 0)·16 + s`, that is, it is the product with row `bcRow d 0 s` of the weight. -/
theorem ridx_B (b : Fin 4096) (d : Fin 1024) (s : Fin 16) (k : Fin 1024) :
    idx_main_v9 (ridx_main_v10 (idx_main_v11 (idx_main_v12 (idx_main_v13 (ix3 b d s)))) k) = ix2 (SsmSpec.bcRow d 0 s) k :=
  funext fun a => Fin.ext (by
    match a with
    | ⟨0, _⟩ =>
      have hb := b.isLt; have hd := d.isLt; have hs := s.isLt
      show (((((b.val * 1024 + d.val) * 16 + s.val) / 16384 * 1024 + ((b.val * 1024 + d.val) * 16 + s.val) / 16 % 1024) * 2 + 0) * 16
        + ((b.val * 1024 + d.val) * 16 + s.val) % 16) % 32768 = (d.val * 2 + 0) * 16 + s.val
      omega
    | ⟨1, _⟩ => rfl)

/-- The output half likewise, in column `(d·2 + 1)·16 + s`. -/
theorem lidx_C (b : Fin 4096) (d : Fin 1024) (s : Fin 16) (k : Fin 1024) :
    lidx_main_v10 (idx_main_v11 (idx_main_v14 (idx_main_v15 (ix3 b d s)))) k = ix2 b k :=
  funext fun a => Fin.ext (by
    match a with
    | ⟨0, _⟩ =>
      have hb := b.isLt; have hd := d.isLt; have hs := s.isLt
      show (((((b.val * 1024 + d.val) * 16 + s.val) / 16384 * 1024 + ((b.val * 1024 + d.val) * 16 + s.val) / 16 % 1024) * 2 + (1 + 0)) * 16
        + ((b.val * 1024 + d.val) * 16 + s.val) % 16) / 32768 = b.val
      omega
    | ⟨1, _⟩ => rfl)

theorem ridx_C (b : Fin 4096) (d : Fin 1024) (s : Fin 16) (k : Fin 1024) :
    idx_main_v9 (ridx_main_v10 (idx_main_v11 (idx_main_v14 (idx_main_v15 (ix3 b d s)))) k) = ix2 (SsmSpec.bcRow d 1 s) k :=
  funext fun a => Fin.ext (by
    match a with
    | ⟨0, _⟩ =>
      have hb := b.isLt; have hd := d.isLt; have hs := s.isLt
      show (((((b.val * 1024 + d.val) * 16 + s.val) / 16384 * 1024 + ((b.val * 1024 + d.val) * 16 + s.val) / 16 % 1024) * 2 + (1 + 0)) * 16
        + ((b.val * 1024 + d.val) * 16 + s.val) % 16) % 32768 = (d.val * 2 + 1) * 16 + s.val
      omega
    | ⟨1, _⟩ => rfl)

/-! ## The stages -/

section Stages

variable (x0 : (⟨S4096x1024, .f32⟩ : BufTy).Contents (Elt Ideal))
  (x1 : (⟨S4096x1024x16, .f32⟩ : BufTy).Contents (Elt Ideal))
  (x2 x3 : (⟨S1024x1024, .f32⟩ : BufTy).Contents (Elt Ideal))
  (x4 : (⟨S1024, .f32⟩ : BufTy).Contents (Elt Ideal))
  (x5 : (⟨S32768x1024, .f32⟩ : BufTy).Contents (Elt Ideal))
  (x6 : (⟨S1024x16, .f32⟩ : BufTy).Contents (Elt Ideal))
  (x7 : (⟨S1024, .f32⟩ : BufTy).Contents (Elt Ideal))
  (x8 : (⟨S1024x1024, .f32⟩ : BufTy).Contents (Elt Ideal))
  (x9 : (⟨S1024, .f32⟩ : BufTy).Contents (Elt Ideal))

/-- `u(b,d) = Σₖ x(b,k) · W_in(d,k)`. -/
theorem u_eq (b : Fin 4096) (d : Fin 1024) :
    val_main_v1 (F := Ideal) x0 x2 (ix2 b d) = SsmSpec.dotRow x0 x2 b d := by
  rw [val_main_v1_apply]
  unfold SsmSpec.dotRow
  refine Finset.sum_congr rfl fun k _ => ?_
  rw [val_main_v0_apply, lidx_v1, ridx_v1]

/-- The argument of the softplus: `Σₖ x(b,k) · W_dt(d,k) + b_dt(d)`. -/
theorem dt_eq (b : Fin 4096) (d : Fin 1024) :
    val_main_v6 (F := Ideal) x0 x3 x4 (ix2 b d) = SsmSpec.dotRow x0 x3 b d + x4 (ix1 d) := by
  rw [val_main_v6_apply, val_main_v3_apply, val_main_v5_apply, val_main_v4_apply, idx_bias, Ideal.addf_def]
  unfold SsmSpec.dotRow
  refine congrArg (· + x4 (ix1 d)) (Finset.sum_congr rfl fun k _ => ?_)
  rw [val_main_v2_apply, lidx_v3, ridx_v3]

/-- The step size `δ(b,d)`: the guard of the softplus compares a value with itself, so the ordinary branch is taken. -/
theorem delta_eq (b : Fin 4096) (d : Fin 1024) :
    val_main_v7 (F := Ideal) x0 x3 x4 (ix2 b d) = SsmSpec.delta x0 x3 x4 b d := by
  rw [val_main_v7_apply, val_main_call0_v4_apply, Ideal.cmpf_def, SsmSpec.cmp_une_self, select_zero,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_cst_apply, dt_eq]
  rfl

/-- `B(b,d,s)`: the input half of the combined projection. -/
theorem B_eq (b : Fin 4096) (d : Fin 1024) (s : Fin 16) :
    val_main_v13 (F := Ideal) x0 x5 (ix3 b d s) = SsmSpec.dotRow x0 x5 b (SsmSpec.bcRow d 0 s) := by
  rw [val_main_v13_apply, val_main_v12_apply, val_main_v11_apply, val_main_v10_apply]
  unfold SsmSpec.dotRow
  refine Finset.sum_congr rfl fun k _ => ?_
  rw [val_main_v9_apply, lidx_B, ridx_B]

/-- `C(b,d,s)`: the output half of the combined projection. -/
theorem C_eq (b : Fin 4096) (d : Fin 1024) (s : Fin 16) :
    val_main_v15 (F := Ideal) x0 x5 (ix3 b d s) = SsmSpec.dotRow x0 x5 b (SsmSpec.bcRow d 1 s) := by
  rw [val_main_v15_apply, val_main_v14_apply, val_main_v11_apply, val_main_v10_apply]
  unfold SsmSpec.dotRow
  refine Finset.sum_congr rfl fun k _ => ?_
  rw [val_main_v9_apply, lidx_C, ridx_C]

/-- The new state `h'(b,d,s)`. -/
theorem hnew_eq (b : Fin 4096) (d : Fin 1024) (s : Fin 16) :
    val_main_v29 (F := Ideal) x0 x1 x2 x3 x4 x5 x6 (ix3 b d s) = SsmSpec.hnew x0 x1 x2 x3 x4 x5 x6 b d s := by
  rw [val_main_v29_apply, val_main_v23_apply, val_main_v22_apply, val_main_v21_apply, val_main_v19_apply,
    val_main_v8_apply, idx_delta19, delta_eq, val_main_v20_apply, val_main_v18_apply, val_main_v17_apply,
    val_main_v16_apply, idx_A, val_main_v28_apply, val_main_v25_apply, val_main_v24_apply, val_main_v8_apply,
    idx_delta24, delta_eq, B_eq, val_main_v27_apply, val_main_v26_apply, idx_u, u_eq]
  rfl

/-- The read-out `y(b,d)` before the output projection. -/
theorem y_eq (b : Fin 4096) (d : Fin 1024) :
    val_main_v35 (F := Ideal) x0 x1 x2 x3 x4 x5 x6 x7 (ix2 b d) = SsmSpec.yval x0 x1 x2 x3 x4 x5 x6 x7 b d := by
  have hs : ∀ k : Fin 16, val_main_v30 (F := Ideal) x0 x1 x2 x3 x4 x5 x6 (idx_main_v31 (ix2 b d) k)
      = SsmSpec.hnew x0 x1 x2 x3 x4 x5 x6 b d k * SsmSpec.dotRow x0 x5 b (SsmSpec.bcRow d 1 k) := fun k => by
    rw [idx_sum, val_main_v30_apply, hnew_eq, C_eq, Ideal.mulf_def]
  rw [val_main_v35_apply, val_main_v31_apply, val_main_cst_apply, val_main_v34_apply, val_main_v33_apply,
    val_main_v32_apply, idx_D, u_eq, Finset.sum_congr rfl fun k _ => hs k]
  rfl

/-- The gated read-out: the reference spells the logistic function as `1 / (1 + exp(−y))`. -/
theorem gate_eq (b : Fin 4096) (k : Fin 1024) :
    val_main_v36 (F := Ideal) x0 x1 x2 x3 x4 x5 x6 x7 (ix2 b k)
      = SsmSpec.gate (SsmSpec.yArr x0 x1 x2 x3 x4 x5 x6 x7 (ix2 b k)) := by
  rw [val_main_v36_apply, val_main_call1_v5_apply, val_main_call1_v4_apply, val_main_call1_cst_0_apply,
    val_main_call1_v3_apply, val_main_call1_v2_apply, val_main_call1_cst_apply, val_main_call1_v1_apply,
    val_main_call1_v0_apply, y_eq, Ideal.ofBits_def, one_f32]
  rfl

/-- The result `out(b,j)`. -/
theorem out_eq (b : Fin 4096) (j : Fin 1024) :
    val_main_v41 (F := Ideal) x0 x1 x2 x3 x4 x5 x6 x7 x8 x9 (ix2 b j)
      = SsmSpec.outOf (SsmSpec.yArr x0 x1 x2 x3 x4 x5 x6 x7) x8 (x9 (ix1 j)) b j := by
  rw [val_main_v41_apply, val_main_v38_apply, val_main_v40_apply, val_main_v39_apply, idx_bout, Ideal.addf_def]
  unfold SsmSpec.outOf
  refine congrArg (· + x9 (ix1 j)) (Finset.sum_congr rfl fun k _ => ?_)
  rw [lidx_v38, val_main_v37_apply, ridx_v38, gate_eq]

end Stages

/-! ## The two results -/

/-- The reference's second result is the new state of `SsmSpec`. -/
theorem ref_hnew (x0 : (⟨S4096x1024, .f32⟩ : BufTy).Contents (Elt Ideal))
    (x1 : (⟨S4096x1024x16, .f32⟩ : BufTy).Contents (Elt Ideal))
    (x2 x3 : (⟨S1024x1024, .f32⟩ : BufTy).Contents (Elt Ideal))
    (x4 : (⟨S1024, .f32⟩ : BufTy).Contents (Elt Ideal))
    (x5 : (⟨S32768x1024, .f32⟩ : BufTy).Contents (Elt Ideal))
    (x6 : (⟨S1024x16, .f32⟩ : BufTy).Contents (Elt Ideal)) :
    Cert.ReferenceIdeal.Read.val_main_v29 (F := Ideal) x0 x1 x2 x3 x4 x5 x6 = SsmSpec.hnewArr x0 x1 x2 x3 x4 x5 x6 := by
  funext i
  obtain ⟨b, d, s, rfl⟩ : ∃ (b : Fin 4096) (d : Fin 1024) (s : Fin 16), i = ix3 b d s := ⟨i 0, i 1, i 2, eq_ix3 i⟩
  exact hnew_eq x0 x1 x2 x3 x4 x5 x6 b d s

/-- The reference's first result is the output of `SsmSpec`. -/
theorem ref_out (x0 : (⟨S4096x1024, .f32⟩ : BufTy).Contents (Elt Ideal))
    (x1 : (⟨S4096x1024x16, .f32⟩ : BufTy).Contents (Elt Ideal))
    (x2 x3 : (⟨S1024x1024, .f32⟩ : BufTy).Contents (Elt Ideal))
    (x4 : (⟨S1024, .f32⟩ : BufTy).Contents (Elt Ideal))
    (x5 : (⟨S32768x1024, .f32⟩ : BufTy).Contents (Elt Ideal))
    (x6 : (⟨S1024x16, .f32⟩ : BufTy).Contents (Elt Ideal))
    (x7 : (⟨S1024, .f32⟩ : BufTy).Contents (Elt Ideal))
    (x8 : (⟨S1024x1024, .f32⟩ : BufTy).Contents (Elt Ideal))
    (x9 : (⟨S1024, .f32⟩ : BufTy).Contents (Elt Ideal)) :
    Cert.ReferenceIdeal.Read.val_main_v41 (F := Ideal) x0 x1 x2 x3 x4 x5 x6 x7 x8 x9
      = SsmSpec.outArr x0 x1 x2 x3 x4 x5 x6 x7 x8 x9 := by
  funext i
  obtain ⟨b, j, rfl⟩ : ∃ (b : Fin 4096) (j : Fin 1024), i = ix2 b j := ⟨i 0, i 1, eq_ix2 i⟩
  exact out_eq x0 x1 x2 x3 x4 x5 x6 x7 x8 x9 b j

end Cert.ReferenceIdeal.IsSpec

end
-- ==== Proof.lean ====
/-
  The certificate of a single-step state-space update computed in two pipelined stages against its plain reference.

  Both programs compute, from the batch `x`, the state `h` and the projection weights, the new state
  `h'(b,d,s) = exp(δ(b,d) · (−exp A_log(d,s))) · h(b,d,s) + δ(b,d) · B(b,d,s) · u(b,d)` and the output
  `out(b,j) = Σₖ y(b,k) σ(y(b,k)) · W_out(j,k) + b_out(j)`, `y(b,d) = Σₛ h'(b,d,s) · C(b,d,s) + D(d) · u(b,d)`
  (SsmSpec.lean has every piece).  The tiled program works on 32 × 128 tiles in its first stage and on 512-row tiles
  in its second; over the extended reals a change of float format is the identity, a product against a transposed
  block is the row-against-row sum, the self-comparison guarding softplus is never taken and `0 − a` is `−a`, so each
  tile entry is the whole-array function at the tile's global coordinates (TileProj, TileCell, Region0, Region1), the
  tiles cover the arrays (Region0Arr, Region1), and the reference's operations compose to the same functions
  (RefIsSpec).  No law used needs finiteness: the two sides are the same sums of the same products in the same order.
-/
import proofs.«118145_j8538394984487_2_alg».proof.Defs
import proofs.«118145_j8538394984487_2_alg».proof.Proof.Gen.Kernel
import proofs.«118145_j8538394984487_2_alg».proof.Proof.Gen.Kernel.Skeleton
import proofs.«118145_j8538394984487_2_alg».proof.Proof.Gen.Kernel.Launch
import proofs.«118145_j8538394984487_2_alg».proof.Proof.Gen.Kernel.Points
import proofs.«118145_j8538394984487_2_alg».proof.Proof.Gen.Kernel.Frame
import proofs.«118145_j8538394984487_2_alg».proof.Proof.Gen.KernelIdeal
import proofs.«118145_j8538394984487_2_alg».proof.Proof.Gen.KernelIdeal.Skeleton
import proofs.«118145_j8538394984487_2_alg».proof.Proof.Gen.KernelIdeal.Launch
import proofs.«118145_j8538394984487_2_alg».proof.Proof.Gen.KernelIdeal.Points
import proofs.«118145_j8538394984487_2_alg».proof.Proof.Gen.KernelIdeal.Frame
import proofs.«118145_j8538394984487_2_alg».proof.Proof.Gen.ReferenceIdeal
import proofs.«118145_j8538394984487_2_alg».proof.Proof.Gen.Pre_finite_inputs
import proofs.«118145_j8538394984487_2_alg».proof.Proof.Gen.ReferenceIdeal.Run
import proofs.«118145_j8538394984487_2_alg».proof.Proof.Gen.ReferenceIdeal.Read
import proofs.«118145_j8538394984487_2_alg».proof.Proof.KernelRun
import proofs.«118145_j8538394984487_2_alg».proof.Proof.Region1
import proofs.«118145_j8538394984487_2_alg».proof.Proof.RefIsSpec
import Idealize.ShloMosaic.Adequacy
import Idealize.ShloMosaic.Init

set_option maxRecDepth 16384

noncomputable section

namespace Cert.Proof

open Idealize.ShloMosaic Idealize.ShloMosaic.TcCoe Idealize.SL.Sem

/-- The tiled program as printed runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its reading at the ideal values. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- The idealization rewrote nothing. -/
theorem preserves : Cert.preserves_Kernel_KernelIdeal := trivial

/-- Both programs end with the output array and the new-state array of the launch arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => SsmSpec.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => SsmSpec.hnewArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Results.run_all (F := Ideal) m ρ)
    exact ⟨(h c Cert.KernelIdeal.main_v17 (by decide)).trans
        ((Cert.KernelIdeal.Entry.out_end m ρ c).trans (Cert.KernelIdeal.Stage2.out_final m ρ c)),
      (h c Cert.KernelIdeal.main_v14_1 (by decide)).trans
        ((Cert.KernelIdeal.Entry.hnew_end m ρ c).trans (Cert.KernelIdeal.Stage1.hnew_final m ρ c)),
      (h c Cert.KernelIdeal.main_arg0 (by decide)).trans (Cert.KernelIdeal.Gen.W4_main_arg0 m ρ c),
      (h c Cert.KernelIdeal.main_arg1 (by decide)).trans (Cert.KernelIdeal.Gen.W4_main_arg1 m ρ c),
      (h c Cert.KernelIdeal.main_arg2 (by decide)).trans (Cert.KernelIdeal.Gen.W4_main_arg2 m ρ c),
      (h c Cert.KernelIdeal.main_arg3 (by decide)).trans (Cert.KernelIdeal.Gen.W4_main_arg3 m ρ c),
      (h c Cert.KernelIdeal.main_arg4 (by decide)).trans (Cert.KernelIdeal.Gen.W4_main_arg4 m ρ c),
      (h c Cert.KernelIdeal.main_arg5 (by decide)).trans (Cert.KernelIdeal.Gen.W4_main_arg5 m ρ c),
      (h c Cert.KernelIdeal.main_arg6 (by decide)).trans (Cert.KernelIdeal.Gen.W4_main_arg6 m ρ c),
      (h c Cert.KernelIdeal.main_arg7 (by decide)).trans (Cert.KernelIdeal.Gen.W4_main_arg7 m ρ c),
      (h c Cert.KernelIdeal.main_arg8 (by decide)).trans (Cert.KernelIdeal.Gen.W4_main_arg8 m ρ c),
      (h c Cert.KernelIdeal.main_arg9 (by decide)).trans (Cert.KernelIdeal.Gen.W4_main_arg9 m ρ c)⟩
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v41_eq, Cert.ReferenceIdeal.IsSpec.ref_out,
        (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2]
    · rw [(h c).2.1, Cert.ReferenceIdeal.Read.val_main_v29_eq, Cert.ReferenceIdeal.IsSpec.ref_hnew,
        (hagree c).1, (hagree c).2.1, (hagree c).2.2.1, (hagree c).2.2.2.1, (hagree c).2.2.2.2.1, (hagree c).2.2.2.2.2.1,
        (hagree c).2.2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
